-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S1 .f32) (main_arg14 : FVec F S128x1 .f32) (main_arg15 : FVec F S1 .f32) (main_arg16 : FVec F S128x1 .f32) (main_arg17 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x1 .f32) (main_arg13 : FVec F S1 .f32) (main_arg14 : FVec F S128x1 .f32) (main_arg15 : FVec F S1 .f32) (main_arg16 : FVec F S128x1 .f32) (main_arg17 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S128x1 .f32) (main_arg15 : FVec F S1 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S100000 32) (main_arg2 : FVec F S100000 .f32) (main_arg3 : IVec S2x1600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S128x1 .f32) (main_arg15 : FVec F S1 .f32) (main_arg16 : FVec F S128x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S100000 : Shape := ⟨1, ![100000]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S100000x1 : Shape := ⟨2, ![100000, 1]⟩
abbrev S1x1 : Shape := ⟨2, ![1, 1]⟩
abbrev S5000x1 : Shape := ⟨2, ![5000, 1]⟩

abbrev nBuf : Space → Nat
  | .hbm => 112
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000, .f32⟩
  | .hbm, ⟨3, _⟩ => ⟨S2x1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S128x1, .f32⟩
  | .hbm, ⟨15, _⟩ => ⟨S1, .f32⟩
  | .hbm, ⟨16, _⟩ => ⟨S128x1, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S100000, .i32⟩
  | .hbm, ⟨23, _⟩ => ⟨S1700000, .i32⟩
  | .hbm, ⟨24, _⟩ => ⟨S1700000, .i32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S1700000x1, .f32⟩
  | .hbm, ⟨61, _⟩ => ⟨S128x128, .bf16⟩
  | .hbm, ⟨62, _⟩ => ⟨S128x128, .bf16⟩
  | .hbm, ⟨63, _⟩ => ⟨S1x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S100000x128, .f32⟩
  | .hbm, ⟨99, _⟩ => ⟨S100000x1, .i32⟩
  | .hbm, ⟨100, _⟩ => ⟨S128x128, .bf16⟩
  | .hbm, ⟨101, _⟩ => ⟨S128x128, .bf16⟩
  | .hbm, ⟨102, _⟩ => ⟨S128x1, .bf16⟩
  | .hbm, ⟨103, _⟩ => ⟨S128x1, .bf16⟩
  | .hbm, ⟨104, _⟩ => ⟨S128x1, .bf16⟩
  | .hbm, ⟨105, _⟩ => ⟨S1x128, .f32⟩
  | .hbm, ⟨106, _⟩ => ⟨S1x128, .f32⟩
  | .hbm, ⟨107, _⟩ => ⟨S1x1, .f32⟩
  | .hbm, ⟨108, _⟩ => ⟨S1x1, .f32⟩
  | .hbm, ⟨109, _⟩ => ⟨S1x1, .f32⟩
  | .hbm, ⟨110, _⟩ => ⟨S100000x1, .f32⟩
  | .hbm, ⟨111, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .i32⟩
  | .local _ .vmem, ⟨23, _⟩ => ⟨S5000x1, .i32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S128x1, .bf16⟩
  | .local _ .vmem, ⟨29, _⟩ => ⟨S1x1, .f32⟩
  | .local _ .vmem, ⟨30, _⟩ => ⟨S128x1, .bf16⟩
  | .local _ .vmem, ⟨31, _⟩ => ⟨S1x1, .f32⟩
  | .local _ .vmem, ⟨32, _⟩ => ⟨S128x1, .bf16⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75_0 : Ref sig .tc := ⟨.hbm, 110, rfl⟩
abbrev main_v75_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_stg7_0 : Ref sig .tc := ⟨.vmem, 29, rfl⟩
abbrev cc4_stg8_0 : Ref sig .tc := ⟨.vmem, 30, rfl⟩
abbrev cc4_stg9_0 : Ref sig .tc := ⟨.vmem, 31, rfl⟩
abbrev cc4_stg10_0 : Ref sig .tc := ⟨.vmem, 32, rfl⟩
abbrev cc4_stg11_0 : Ref sig .tc := ⟨.vmem, 33, rfl⟩
abbrev cc4_stg12_0 : Ref sig .tc := ⟨.vmem, 34, rfl⟩
abbrev cc4_stg12_1 : Ref sig .tc := ⟨.vmem, 35, rfl⟩
abbrev cc4_stg13_0 : Ref sig .tc := ⟨.vmem, 36, rfl⟩
abbrev cc4_stg13_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem7_0 : DmaSem sig := 29
abbrev cc4_sem8_0 : DmaSem sig := 30
abbrev cc4_sem9_0 : DmaSem sig := 31
abbrev cc4_sem10_0 : DmaSem sig := 32
abbrev cc4_sem11_0 : DmaSem sig := 33
abbrev cc4_sem12_0 : DmaSem sig := 34
abbrev cc4_sem12_1 : DmaSem sig := 35
abbrev cc4_sem13_0 : DmaSem sig := 36
abbrev cc4_sem13_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x1 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x1 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S128x1 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S5000x1 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S5000x1 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000_S100000x1 : S100000.ShapeCasts S100000x1
  shapeCasts_S1_S1x1 : S1.ShapeCasts S1x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x1.size a ≤ S128x1.size a
  hwx4_6 : ∀ i : grid4.Coords, EltTy.bits .bf16 = 32 ∨ (Rect.block (s := S128x1) S128x1.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x1.size a ≤ S128x1.size a
  hwx4_8 : ∀ i : grid4.Coords, EltTy.bits .bf16 = 32 ∨ (Rect.block (s := S128x1) S128x1.size (cc4_transform_8 i) (hinb4_8 i)).WholeWords (EltTy.packing .bf16)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x1.size a ≤ S1x1.size a
  hwx4_9 : ∀ i : grid4.Coords, EltTy.bits .f32 = 32 ∨ (Rect.block (s := S1x1) S1x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128x1.size a ≤ S128x1.size a
  hwx4_10 : ∀ i : grid4.Coords, EltTy.bits .bf16 = 32 ∨ (Rect.block (s := S128x1) S128x1.size (cc4_transform_10 i) (hinb4_10 i)).WholeWords (EltTy.packing .bf16)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x1.size a ≤ S1x1.size a
  hwx4_11 : ∀ i : grid4.Coords, EltTy.bits .f32 = 32 ∨ (Rect.block (s := S1x1) S1x1.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S5000x1.size a ≤ S100000x1.size a
  hwx4_12 : ∀ i : grid4.Coords, EltTy.bits .f32 = 32 ∨ (Rect.block (s := S100000x1) S5000x1.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S5000x1.size a ≤ S100000x1.size a
  hwx4_13 : ∀ i : grid4.Coords, EltTy.bits .f32 = 32 ∨ (Rect.block (s := S100000x1) S5000x1.size (cc4_transform_13 i) (hinb4_13 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v67) S128x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v68) S128x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v73) S1x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v69) S128x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v74) S1x1.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v75_0) S5000x1.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v75_1) S5000x1.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S100000x128 : Shape := ⟨2, ![100000, 128]⟩
abbrev S100000 : Shape := ⟨1, ![100000]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S100000x128, .f32⟩
  | 1 => ⟨S100000, .i32⟩
  | 2 => ⟨S100000, .f32⟩
  | 3 => ⟨S2x1600000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S128x1, .f32⟩
  | 15 => ⟨S1, .f32⟩
  | 16 => ⟨S128x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S100000, .i32⟩
  | 23 => ⟨S1700000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x1, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000, .i32⟩
  | 84 => ⟨S1700000, .i32⟩
  | 85 => ⟨S1700000, .i32⟩
  | 86 => ⟨S_, .f32⟩
  | 87 => ⟨S1700000, .f32⟩
  | 88 => ⟨S_, .f32⟩
  | 89 => ⟨S100000, .f32⟩
  | 90 => ⟨S1700000x1, .i32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000, .f32⟩
  | 120 => ⟨S1700000, .f32⟩
  | 121 => ⟨S100000x128, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x128, .f32⟩

abbrev hbmTy0_1 (i : Nat) : BufTy := match i % 128 with
  | 0 => ⟨S1700000, .i32⟩
  | 1 => ⟨S1700000x1, .i32⟩
  | 2 => ⟨S1700000x128, .f32⟩
  | 3 => ⟨S1700000x1, .f32⟩
  | 4 => ⟨S1700000x128, .f32⟩
  | 5 => ⟨S1700000x128, .f32⟩
  | 6 => ⟨S_, .f32⟩
  | 7 => ⟨S100000x128, .f32⟩
  | 8 => ⟨S1700000x1, .i32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x1, .f32⟩
  | 31 => ⟨S1x1, .f32⟩
  | 32 => ⟨S100000x1, .f32⟩
  | 33 => ⟨S100000x1, .f32⟩
  | 34 => ⟨S100000, .f32⟩
  | 35 => ⟨S100000x1, .f32⟩
  | 36 => ⟨S1x1, .f32⟩
  | 37 => ⟨S100000x1, .f32⟩
  | 38 => ⟨S100000x1, .f32⟩
  | 39 => ⟨S100000, .f32⟩
  | 40 => ⟨S_, .i32⟩
  | 41 => ⟨S100000, .i32⟩
  | 42 => ⟨S100000, .i1⟩
  | 43 => ⟨S100000, .f32⟩
  | 44 => ⟨S100000x1, .f32⟩
  | 45 => ⟨S1x1, .f32⟩
  | 46 => ⟨S100000x1, .f32⟩
  | 47 => ⟨S100000x1, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S100000, .f32⟩
  | 57 => ⟨S100000x1, .f32⟩
  | 58 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call1_cst : Ref sig .tc := ⟨.hbm, 80, rfl⟩
abbrev main_call1_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v60 : Ref sig .tc := ⟨.hbm, 101, rfl⟩
abbrev main_c_15 : Ref sig .tc := ⟨.hbm, 102, rfl⟩
abbrev main_v61 : Ref sig .tc := ⟨.hbm, 103, rfl⟩
abbrev main_v62 : Ref sig .tc := ⟨.hbm, 104, rfl⟩
abbrev main_c_16 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_17 : Ref sig .tc := ⟨.hbm, 111, rfl⟩
abbrev main_v68 : Ref sig .tc := ⟨.hbm, 112, rfl⟩
abbrev main_v69 : Ref sig .tc := ⟨.hbm, 113, rfl⟩
abbrev main_c_18 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_19 : Ref sig .tc := ⟨.hbm, 122, rfl⟩
abbrev main_v77 : Ref sig .tc := ⟨.hbm, 123, rfl⟩
abbrev main_v78 : Ref sig .tc := ⟨.hbm, 124, rfl⟩
abbrev main_c_20 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_21 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_call3_cst : Ref sig .tc := ⟨.hbm, 141, rfl⟩
abbrev main_call3_v0 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_call4_cst : Ref sig .tc := ⟨.hbm, 148, rfl⟩
abbrev main_call4_v0 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_call5_cst : Ref sig .tc := ⟨.hbm, 155, rfl⟩
abbrev main_call5_v0 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_22 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_23 : Ref sig .tc := ⟨.hbm, 178, rfl⟩
abbrev main_v123 : Ref sig .tc := ⟨.hbm, 179, rfl⟩
abbrev main_v124 : Ref sig .tc := ⟨.hbm, 180, rfl⟩
abbrev main_cst_24 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S100000x1 : S_.BroadcastsInDim S100000x1 (![] : Fin 0 → Fin S100000x1.rank)
  bcast_S100000_S100000x1_0 : S100000.BroadcastsInDim S100000x1 (![0] : Fin 1 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelValueRun.lean ====
/-
  The idealized kernel's run with its two results named.

  The program is five tiled kernels among stretches of host operations. Its run ends with every buffer that is not a
  staging buffer holding the last boundary's contents: the launch memory pushed through each stretch of host operations
  and through each kernel's write-backs in turn. Read at the two result arrays this names what the program returns;
  read at an argument array it gives back the launch contents, since nothing writes an argument.
-/
import proofs.«169582_j48704929137156_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result arrays at the last boundary's
    contents and the argument arrays as launched. -/
theorem run : θ_run defs (onTc (τ := τ) (main (F := F))) ⟨m, fun _ => 0, ρ⟩ (fun r => ∀ c : Dev nD,
      r.2.mem ((c.tc : Thread nD τ).loc main_v75_0) = W11 m ρ c (Proc.devRef .tc main_v75_0)
      ∧ r.2.mem ((c.tc : Thread nD τ).loc main_v75_1) = W11 m ρ c (Proc.devRef .tc main_v75_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75_0 (by decide)),
       h c _ (mem_uc main_v75_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c)⟩)

end Cert.KernelIdeal.ValueRun

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«169582_j48704929137156_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LinearBlocks.lean ====
/-
  The two linear kernels: a matrix product computed one block of 5000 rows at a time.

  Each grid point loads rows 5000·t … 5000·t + 4999 of the left array and the whole [128, 128] weight array (already
  rounded to bf16 by the host), rounds the rows to bf16, multiplies into a zero accumulator and writes the block of rows back.
  Over the extended reals rounding is the identity and a product into zero is the plain sum over the contracted
  coordinate, so the block written at point t is rows 5000·t … of the host's one product of the two whole arrays; the
  twenty blocks tile the [100000, 128] result, which therefore ends as that whole product.
-/
import proofs.«169582_j48704929137156_1_alg».proof.Proof.Gen.KernelIdeal.Frame
import proofs.«169582_j48704929137156_1_alg».proof.Proof.LibRowBlockProduct
import Idealize.ShloMosaic.Lib.Pipeline.Value
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero2 : (![0, 0] : Fin 2 → Nat) = fun _ => 0 := funext fun a => by fin_cases a <;> rfl

/-- The [100000, 128] by [128, 128] product as the host computes it, the right operand of any float format. -/
def wholeProduct {φ : FTy} (X : FVec Ideal S100000x128 .f32) (W : FVec Ideal S128x128 φ) : FVec Ideal S100000x128 .f32 :=
  Host.dotGeneral (DotDims.plain 100000 128 128) none X W

/-- The block product's dimension numbers are the plain ones: contract the left operand's columns with the right's rows. -/
theorem block_dims : dot_S5000x128_S128x128_S5000x128_1_0_0_1_n_n = DotDims.plain 5000 128 128 := rfl

/-- Rounding the left operand to bf16 changes nothing over the extended reals. -/
theorem product_round_left {φ : FTy} (X : FVec Ideal S100000x128 .f32) (W : FVec Ideal S128x128 φ) :
    Host.dotGeneral (DotDims.plain 100000 128 128) none (truncf .bf16 X bitsLt_bf16_f32) W = wholeProduct X W := by
  funext j
  exact (Ideal.dotGeneral_apply (DotDims.plain 100000 128 128) none default (truncf .bf16 X bitsLt_bf16_f32) W j).trans
    (Ideal.dotGeneral_apply (DotDims.plain 100000 128 128) none default X W j).symm

/-! ## Kernel 0: one block of rows of a product per grid point -/

section Region0

/-- The body's value on the blocks of one point, at a block index: the host's whole product read where the result block
    puts the index. The blocks are known only through where their index maps send coordinates: rows shifted by the
    block's offset, columns kept. -/
theorem product_payload0 (x0 : FVec Ideal S5000x128 .f32) (x1 : FVec Ideal S128x128 .bf16)
    (X : FVec Ideal S100000x128 .f32) (W : FVec Ideal S128x128 .bf16)
    (ex : S5000x128.Idx → S100000x128.Idx) (ew : S128x128.Idx → S128x128.Idx) (eo : S5000x128.Idx → S100000x128.Idx) (off : Nat)
    (hx : ∀ y, x0 y = X (ex y)) (hw : ∀ y, x1 y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : S5000x128.Idx) :
    k0_pay1 (F := Ideal) x0 x1 j = wholeProduct X W (eo j) := by
  show matmul dot_S5000x128_S128x128_S5000x128_1_0_0_1_n_n none (truncf .bf16 x0 bitsLt_bf16_f32)
      (shapeCast S128x128 x1 shapeCasts_S128x128_S128x128) (constant S5000x128 .f32 0x00000000#32) j = _
  rw [shapeCast_self, block_dims]
  exact (Cert.Lib.plain_product_row_block none (truncf .bf16 x0 bitsLt_bf16_f32) x1 (truncf .bf16 X bitsLt_bf16_f32) W ex ew eo off
    (fun y => hx y) hw hex0 hex1 hew0 hew1 heo0 heo1 j).trans (congrFun (product_round_left X W) (eo j))

/-- The printed index maps, decided over the grid: the row blocks move with the point, the weight block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem onto0 : ∀ q : Fin 20, ∃ t : Fin cfg0.N, win0_2.index t = ![q.val, 0] :=
  (by decide +kernel : ∀ q : Fin 20, ∃ t : Fin grid0.N, win0_2.index t = ![q.val, 0])

variable (V : (c : Dev nD) → (b : Ref sig .tc) → Buf (Elt Ideal) ((c : Thread nD τ).loc b))

/-- What point `t` writes back is block `t` of the whole product of the two arrays the kernel reads. -/
theorem flushed0 (c : Dev nD) (t : Fin cfg0.N) :
    (dat0 V c).flushed 2 t = ((cfg0.win 2).blk t).view.read (Elt Ideal) (wholeProduct (φ := .bf16) (V c main_arg0) (V c main_v32)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x128) zero2]
  obtain ⟨e0, e1, e2, e3, e4, e5⟩ := idx0 t
  funext j
  show k0_pay1 (iblk0 V c 0 t) (iblk0 V c 1 t) j = wholeProduct (φ := .bf16) (V c main_arg0) (V c main_v32) (((cfg0.win 2).blk t).view.emb j)
  refine product_payload0 (iblk0 V c 0 t) (iblk0 V c 1 t) (V c main_arg0) (V c main_v32)
    (((cfg0.win 0).blk t).view.emb) (((cfg0.win 1).blk t).view.emb) (((cfg0.win 2).blk t).view.emb) (5000 * t.val)
    (fun y => rfl) (fun y => rfl) ?_ ?_ ?_ ?_ ?_ ?_ j
  · intro y; show win0_0.index t (0 : Fin 2) * 5000 + 1 * (y 0).val = 5000 * t.val + (y 0).val; omega
  · intro y; show win0_0.index t (1 : Fin 2) * 128 + 1 * (y 1).val = (y 1).val; omega
  · intro y; show win0_1.index t (0 : Fin 2) * 128 + 1 * (y 0).val = (y 0).val; omega
  · intro y; show win0_1.index t (1 : Fin 2) * 128 + 1 * (y 1).val = (y 1).val; omega
  · intro y; show win0_2.index t (0 : Fin 2) * 5000 + 1 * (y 0).val = 5000 * t.val + (y 0).val; omega
  · intro y; show win0_2.index t (1 : Fin 2) * 128 + 1 * (y 1).val = (y 1).val; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- The twenty row blocks tile the result array: row `r` is in the block of point `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the kernel: the whole product of the two arrays it read, as the host computes it. -/
theorem final0 (c : Dev nD) : (dat0 V c).arrAt 2 cfg0.N = wholeProduct (φ := .bf16) (V c main_arg0) (V c main_v32) :=
  (dat0 V c).arrAt_eq_of_cover 2 (wholeProduct (φ := .bf16) (V c main_arg0) (V c main_v32)) (fun t _ => flushed0 V c t) cover0

end Region0

/-! ## Kernel 2: one block of rows of a product per grid point -/

section Region2

/-- The body's value on the blocks of one point, at a block index: the host's whole product read where the result block
    puts the index. The blocks are known only through where their index maps send coordinates: rows shifted by the
    block's offset, columns kept. -/
theorem product_payload2 (x0 : FVec Ideal S5000x128 .f32) (x1 : FVec Ideal S128x128 .bf16)
    (X : FVec Ideal S100000x128 .f32) (W : FVec Ideal S128x128 .bf16)
    (ex : S5000x128.Idx → S100000x128.Idx) (ew : S128x128.Idx → S128x128.Idx) (eo : S5000x128.Idx → S100000x128.Idx) (off : Nat)
    (hx : ∀ y, x0 y = X (ex y)) (hw : ∀ y, x1 y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : S5000x128.Idx) :
    k2_pay1 (F := Ideal) x0 x1 j = wholeProduct X W (eo j) := by
  show matmul dot_S5000x128_S128x128_S5000x128_1_0_0_1_n_n none (truncf .bf16 (shapeCast S5000x128 x0 shapeCasts_S5000x128_S5000x128) bitsLt_bf16_f32)
      (shapeCast S128x128 x1 shapeCasts_S128x128_S128x128) (constant S5000x128 .f32 0x00000000#32) j = _
  rw [shapeCast_self, shapeCast_self, block_dims]
  exact (Cert.Lib.plain_product_row_block none (truncf .bf16 x0 bitsLt_bf16_f32) x1 (truncf .bf16 X bitsLt_bf16_f32) W ex ew eo off
    (fun y => hx y) hw hex0 hex1 hew0 hew1 heo0 heo1 j).trans (congrFun (product_round_left X W) (eo j))

/-- The printed index maps, decided over the grid: the row blocks move with the point, the weight block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem onto2 : ∀ q : Fin 20, ∃ t : Fin cfg2.N, win2_2.index t = ![q.val, 0] :=
  (by decide +kernel : ∀ q : Fin 20, ∃ t : Fin grid2.N, win2_2.index t = ![q.val, 0])

variable (V : (c : Dev nD) → (b : Ref sig .tc) → Buf (Elt Ideal) ((c : Thread nD τ).loc b))

/-- What point `t` writes back is block `t` of the whole product of the two arrays the kernel reads. -/
theorem flushed2 (c : Dev nD) (t : Fin cfg2.N) :
    (dat2 V c).flushed 2 t = ((cfg2.win 2).blk t).view.read (Elt Ideal) (wholeProduct (φ := .bf16) (V c main_v49) (V c main_v33)) := by
  show (cfg2.win 2).cut (grid2.coords t) ((dat2 V c).after 2 t) = _
  rw [after2_2]
  unfold out2_2
  rw [View.canon_unit_zero zero2]
  simp only [View.ld_unit_zero (S := S5000x128) zero2, View.ld_unit_zero (S := S128x128) zero2]
  obtain ⟨e0, e1, e2, e3, e4, e5⟩ := idx2 t
  funext j
  show k2_pay1 (iblk2 V c 0 t) (iblk2 V c 1 t) j = wholeProduct (φ := .bf16) (V c main_v49) (V c main_v33) (((cfg2.win 2).blk t).view.emb j)
  refine product_payload2 (iblk2 V c 0 t) (iblk2 V c 1 t) (V c main_v49) (V c main_v33)
    (((cfg2.win 0).blk t).view.emb) (((cfg2.win 1).blk t).view.emb) (((cfg2.win 2).blk t).view.emb) (5000 * t.val)
    (fun y => rfl) (fun y => rfl) ?_ ?_ ?_ ?_ ?_ ?_ j
  · intro y; show win2_0.index t (0 : Fin 2) * 5000 + 1 * (y 0).val = 5000 * t.val + (y 0).val; omega
  · intro y; show win2_0.index t (1 : Fin 2) * 128 + 1 * (y 1).val = (y 1).val; omega
  · intro y; show win2_1.index t (0 : Fin 2) * 128 + 1 * (y 0).val = (y 0).val; omega
  · intro y; show win2_1.index t (1 : Fin 2) * 128 + 1 * (y 1).val = (y 1).val; omega
  · intro y; show win2_2.index t (0 : Fin 2) * 5000 + 1 * (y 0).val = 5000 * t.val + (y 0).val; omega
  · intro y; show win2_2.index t (1 : Fin 2) * 128 + 1 * (y 1).val = (y 1).val; omega

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- The twenty row blocks tile the result array: row `r` is in the block of point `r / 5000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the kernel: the whole product of the two arrays it read, as the host computes it. -/
theorem final2 (c : Dev nD) : (dat2 V c).arrAt 2 cfg2.N = wholeProduct (φ := .bf16) (V c main_v49) (V c main_v33) :=
  (dat2 V c).arrAt_eq_of_cover 2 (wholeProduct (φ := .bf16) (V c main_v49) (V c main_v33)) (fun t _ => flushed2 V c t) cover2

end Region2

end Cert.KernelIdeal.Blocks

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibConvBlock.lean ====
/-
  A block of rows of a graph-convolution layer, over the extended reals.

  The layer is Y = (A · W_l + B) + H · W_r, where B repeats one bias row over all rows, optionally followed by the rectifier
  max(·, 0). Rows off, …, off + m - 1 of Y depend on those rows of A and H and on all of W_l, W_r and the bias row only. So a
  kernel that computes one block of m rows at a time — each product accumulated into zero, the bias row repeated over the
  block's rows — writes, block by block, the host's whole-array layer: at a block index j its value is Y read where the
  result block puts j. The same holds for the plain linear layer X · W + B. How a block sits in its array is left to index
  maps of which only the coordinates are assumed (rows shifted by `off`, columns kept). Addition is never reordered, so
  nothing is assumed finite.
-/
import proofs.«169582_j48704929137156_1_alg».proof.Proof.LibRowBlockProduct
import proofs.«169582_j48704929137156_1_alg».proof.Proof.LibHostSpread
import Idealize.ShloMosaic.Lib.ValueIdx
import Idealize.ShloMosaic.Lib.ValueLayout

noncomputable section

namespace Cert.Lib

open Idealize.ShloMosaic Idealize.ShloMosaic.ValueIdx

/-- One bias row repeated over the rows of a block, read at a block index `j`, is the row repeated over the rows of the whole
    array read where the block puts `j`: both read the row at `j`'s column. -/
theorem bias_row_block {m M n : Nat} (brow : (⟨2, ![1, n]⟩ : Shape).Idx → EReal)
    (eo : (⟨2, ![m, n]⟩ : Shape).Idx → (⟨2, ![M, n]⟩ : Shape).Idx)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    broadcastTo ⟨2, ![m, n]⟩ brow hk j = broadcastInDim ⟨2, ![M, n]⟩ ![0, 1] hh brow (eo j) := by
  obtain ⟨a, b, rfl⟩ : ∃ (a : Fin m) (b : Fin n), j = ix2 a b := ⟨j 0, j 1, eq_ix2 j⟩
  obtain ⟨a', b', hab⟩ : ∃ (a' : Fin M) (b' : Fin n), eo (ix2 a b) = ix2 a' b' :=
    ⟨eo (ix2 a b) 0, eo (ix2 a b) 1, eq_ix2 _⟩
  have hb' : b' = b := Fin.ext (by have := heo1 (ix2 a b); rw [hab] at this; exact this)
  rw [hab, broadcastTo_1b_ab_apply, spread_1b_ab_apply, hb']

/-- x · w + (the bias row over the block) on an m-row block, the product accumulated into zero, read at a block index `j`, is
    X · w + (the bias row over the array) read where the result block puts `j`. -/
theorem linear_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec x w (constant ⟨2, ![m, n]⟩ .f32 0x00000000#32))
        (broadcastTo ⟨2, ![m, n]⟩ brow hk) j
      = addf (Host.dotGeneral (DotDims.plain M k n) prec X w) (broadcastInDim ⟨2, ![M, n]⟩ ![0, 1] hh brow) (eo j) := by
  rw [addf_apply, addf_apply,
    plain_product_row_block prec x w X w ex id eo off hx (fun _ => rfl) hex0 hex1 (fun _ => rfl) (fun _ => rfl) heo0 heo1 j,
    bias_row_block brow eo heo1 hk hh j]

/-- (a · w_l + bias row) + h · w_r on an m-row block, both products accumulated into zero, read at a block index `j`, is
    (A · w_l + bias row) + H · w_r read where the result block puts `j`. -/
theorem conv_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) prec xa wl (constant ⟨2, ![m, n]⟩ .f32 0x00000000#32))
          (broadcastTo ⟨2, ![m, n]⟩ brow hk))
        (matmul (DotDims.plain m k n) prec xh wr (constant ⟨2, ![m, n]⟩ .f32 0x00000000#32)) j
      = addf (addf (Host.dotGeneral (DotDims.plain M k n) prec A wl) (broadcastInDim ⟨2, ![M, n]⟩ ![0, 1] hh brow))
          (Host.dotGeneral (DotDims.plain M k n) prec H wr) (eo j) := by
  rw [addf_apply, addf_apply (addf _ _) _ (eo j),
    linear_row_block prec xa wl brow A ea eo off hxa hea0 hea1 heo0 heo1 hk hh j,
    plain_product_row_block prec xh wr H wr eh id eo off hxh (fun _ => rfl) heh0 heh1 (fun _ => rfl) (fun _ => rfl) heo0 heo1 j]

/-- The rectified layer: max((a · w_l + bias row) + h · w_r, z) on an m-row block against a splat of the constant `z`, read at
    a block index `j`, is the host's max of the whole-array layer and its spread of `z`, read where the result block puts `j`. -/
theorem conv_relu_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) prec xa wl (constant ⟨2, ![m, n]⟩ .f32 0x00000000#32))
            (broadcastTo ⟨2, ![m, n]⟩ brow hk))
          (matmul (DotDims.plain m k n) prec xh wr (constant ⟨2, ![m, n]⟩ .f32 0x00000000#32)))
        (broadcast ⟨2, ![m, n]⟩ (Scalar.ofBits (F := Ideal) .f32 z)) j
      = maximumf (addf (addf (Host.dotGeneral (DotDims.plain M k n) prec A wl) (broadcastInDim ⟨2, ![M, n]⟩ ![0, 1] hh brow))
            (Host.dotGeneral (DotDims.plain M k n) prec H wr))
          (broadcastInDim ⟨2, ![M, n]⟩ ![] hz (constant ⟨0, ![]⟩ .f32 z)) (eo j) := by
  rw [maximumf_apply, maximumf_apply,
    conv_row_block prec xa xh wl wr brow A H ea eh eo off hxa hxh hea0 hea1 heh0 heh1 heo0 heo1 hk hh j, splat_apply]
  rfl

end Cert.Lib

end
-- ==== Proof.BiasBlocks.lean ====
/-
  The two bias kernels: a + (one bias row repeated over the rows), rectified, one block of 5000 rows at a time.

  Each grid point loads rows 5000·t … of the [100000, 128] array and the one [1, 128] bias row, adds the row to every row of the
  block, takes the maximum with zero and writes the block back where it came from. Entry (r, q) of the result depends on
  entry (r, q) of the array and entry q of the row only, so the block written at point t is rows 5000·t … of the host's
  whole-array expression max(a + row spread over the rows, 0); the twenty blocks tile the result.
-/
import proofs.«169582_j48704929137156_1_alg».proof.Proof.Gen.KernelIdeal.Frame
import proofs.«169582_j48704929137156_1_alg».proof.Proof.LibConvBlock
import Idealize.ShloMosaic.Lib.Pipeline.Value
import Idealize.ShloMosaic.Lib.ValueIdx

set_option maxRecDepth 16384

noncomputable section

namespace Cert.KernelIdeal.BiasBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero2 : (![0, 0] : Fin 2 → Nat) = fun _ => 0 := funext fun a => by fin_cases a <;> rfl

/-- The host's rectified bias layer: max(a + the bias row spread over all rows, 0). -/
def biasRelu (hrow : S1x128.BroadcastsInDim S100000x128 (![0, 1] : Fin 2 → Fin 2)) (hz : S_.BroadcastsInDim S100000x128 (![] : Fin 0 → Fin 2))
    (A : FVec Ideal S100000x128 .f32) (brow : FVec Ideal S1x128 .f32) : FVec Ideal S100000x128 .f32 :=
  maximumf (addf A (broadcastInDim S100000x128 ![0, 1] hrow brow))
    (broadcastInDim S100000x128 ![] hz (constant (F := Ideal) S_ .f32 0x00000000#32))

/-! ## Kernel 1: one block of rows of the rectified bias layer per grid point -/

section Region1

/-- The body's value on the blocks of one point, at a block index: the host's whole rectified layer read where the block
    puts the index. -/
theorem bias_relu_payload1 (x0 : FVec Ideal S5000x128 .f32) (x1 : FVec Ideal S1x128 .f32)
    (A : FVec Ideal S100000x128 .f32) (ex : S5000x128.Idx → S100000x128.Idx)
    (hx : ∀ y, x0 y = A (ex y)) (hex1 : ∀ y, (ex y 1).val = (y 1).val)
    (hrow : S1x128.BroadcastsInDim S100000x128 (![0, 1] : Fin 2 → Fin 2)) (hz : S_.BroadcastsInDim S100000x128 (![] : Fin 0 → Fin 2))
    (j : S5000x128.Idx) :
    k1_pay1 (F := Ideal) x0 x1 j = biasRelu hrow hz A x1 (ex j) := by
  show maximumf (addf (shapeCast S5000x128 x0 shapeCasts_S5000x128_S5000x128)
      (broadcastTo S5000x128 (shapeCast S1x128 x1 shapeCasts_S1x128_S1x128) broadcasts_S1x128_S5000x128))
    (broadcast S5000x128 (Scalar.ofBits (F := Ideal) .f32 0x00000000#32)) j = _
  rw [shapeCast_self, shapeCast_self]
  unfold biasRelu
  rw [maximumf_apply, maximumf_apply, addf_apply, addf_apply, hx,
    Cert.Lib.bias_row_block x1 ex hex1 broadcasts_S1x128_S5000x128 hrow j, Cert.Lib.splat_apply]
  rfl

/-- The printed index maps, decided over the grid: the row blocks move with the point, the bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem onto1_2 : ∀ q : Fin 20, ∃ t : Fin cfg1.N, win1_2.index t = ![q.val, 0] :=
  (by decide +kernel : ∀ q : Fin 20, ∃ t : Fin grid1.N, win1_2.index t = ![q.val, 0])

variable (V : (c : Dev nD) → (b : Ref sig .tc) → Buf (Elt Ideal) ((c : Thread nD τ).loc b))

/-- What point `t` writes back is block `t` of the whole rectified layer of the two arrays the kernel reads. -/
theorem flushed1 (hrow : S1x128.BroadcastsInDim S100000x128 (![0, 1] : Fin 2 → Fin 2)) (hz : S_.BroadcastsInDim S100000x128 (![] : Fin 0 → Fin 2))
    (c : Dev nD) (t : Fin cfg1.N) :
    (dat1 V c).flushed 2 t = ((cfg1.win 2).blk t).view.read (Elt Ideal) (biasRelu hrow hz (V c main_v48) (V c main_v34)) := by
  show (cfg1.win 2).cut (grid1.coords t) ((dat1 V c).after 2 t) = _
  rw [after1_2]
  unfold out1_2
  rw [View.canon_unit_zero zero2]
  simp only [View.ld_unit_zero (S := S5000x128) zero2, View.ld_unit_zero (S := S1x128) zero2]
  obtain ⟨e0, e1, e2, e3, e4, e5⟩ := idx1 t
  -- the one-row window reads the whole bias row
  have hrowblk : iblk1 V c 1 t = V c main_v34 := by
    funext y
    show V c main_v34 (((cfg1.win 1).blk t).view.emb y) = V c main_v34 y
    refine congrArg _ ?_
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  funext j
  show k1_pay1 (iblk1 V c 0 t) (iblk1 V c 1 t) j = biasRelu hrow hz (V c main_v48) (V c main_v34) (((cfg1.win 2).blk t).view.emb j)
  rw [hrowblk]
  -- the input block sits where the output block sits
  have h02 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  rw [← h02]
  exact bias_relu_payload1 (iblk1 V c 0 t) (V c main_v34) (V c main_v48) (((cfg1.win 0).blk t).view.emb) (fun y => rfl)
    (fun y => by show win1_0.index t (1 : Fin 2) * 128 + 1 * (y 1).val = (y 1).val; omega) hrow hz j

/-- An index of the result array is in point `t`'s block iff each coordinate is in the block's range on its axis. -/
theorem mem_blk1_2 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- The twenty row blocks tile the result array: row `r` is in the block of point `r / 5000`. -/
theorem cover1_2 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1_2 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1_2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the kernel, as one host expression of the arrays it read. -/
theorem final1_2 (hrow : S1x128.BroadcastsInDim S100000x128 (![0, 1] : Fin 2 → Fin 2)) (hz : S_.BroadcastsInDim S100000x128 (![] : Fin 0 → Fin 2)) (c : Dev nD) : (dat1 V c).arrAt 2 cfg1.N = biasRelu hrow hz (V c main_v48) (V c main_v34) :=
  (dat1 V c).arrAt_eq_of_cover 2 (biasRelu hrow hz (V c main_v48) (V c main_v34)) (fun t _ => flushed1 V hrow hz c t) cover1_2

end Region1

/-! ## Kernel 3: one block of rows of the rectified bias layer per grid point -/

section Region3

/-- The body's value on the blocks of one point, at a block index: the host's whole rectified layer read where the block
    puts the index. -/
theorem bias_relu_payload3 (x0 : FVec Ideal S5000x128 .f32) (x1 : FVec Ideal S1x128 .f32)
    (A : FVec Ideal S100000x128 .f32) (ex : S5000x128.Idx → S100000x128.Idx)
    (hx : ∀ y, x0 y = A (ex y)) (hex1 : ∀ y, (ex y 1).val = (y 1).val)
    (hrow : S1x128.BroadcastsInDim S100000x128 (![0, 1] : Fin 2 → Fin 2)) (hz : S_.BroadcastsInDim S100000x128 (![] : Fin 0 → Fin 2))
    (j : S5000x128.Idx) :
    k3_pay1 (F := Ideal) x0 x1 j = biasRelu hrow hz A x1 (ex j) := by
  show maximumf (addf (shapeCast S5000x128 x0 shapeCasts_S5000x128_S5000x128)
      (broadcastTo S5000x128 (shapeCast S1x128 x1 shapeCasts_S1x128_S1x128) broadcasts_S1x128_S5000x128))
    (broadcast S5000x128 (Scalar.ofBits (F := Ideal) .f32 0x00000000#32)) j = _
  rw [shapeCast_self, shapeCast_self]
  unfold biasRelu
  rw [maximumf_apply, maximumf_apply, addf_apply, addf_apply, hx,
    Cert.Lib.bias_row_block x1 ex hex1 broadcasts_S1x128_S5000x128 hrow j, Cert.Lib.splat_apply]
  rfl

/-- The printed index maps, decided over the grid: the row blocks move with the point, the bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem onto3_2 : ∀ q : Fin 20, ∃ t : Fin cfg3.N, win3_2.index t = ![q.val, 0] :=
  (by decide +kernel : ∀ q : Fin 20, ∃ t : Fin grid3.N, win3_2.index t = ![q.val, 0])

variable (V : (c : Dev nD) → (b : Ref sig .tc) → Buf (Elt Ideal) ((c : Thread nD τ).loc b))

/-- What point `t` writes back is block `t` of the whole rectified layer of the two arrays the kernel reads. -/
theorem flushed3 (hrow : S1x128.BroadcastsInDim S100000x128 (![0, 1] : Fin 2 → Fin 2)) (hz : S_.BroadcastsInDim S100000x128 (![] : Fin 0 → Fin 2))
    (c : Dev nD) (t : Fin cfg3.N) :
    (dat3 V c).flushed 2 t = ((cfg3.win 2).blk t).view.read (Elt Ideal) (biasRelu hrow hz (V c main_v62) (V c main_v35)) := by
  show (cfg3.win 2).cut (grid3.coords t) ((dat3 V c).after 2 t) = _
  rw [after3_2]
  unfold out3_2
  rw [View.canon_unit_zero zero2]
  simp only [View.ld_unit_zero (S := S5000x128) zero2, View.ld_unit_zero (S := S1x128) zero2]
  obtain ⟨e0, e1, e2, e3, e4, e5⟩ := idx3 t
  -- the one-row window reads the whole bias row
  have hrowblk : iblk3 V c 1 t = V c main_v35 := by
    funext y
    show V c main_v35 (((cfg3.win 1).blk t).view.emb y) = V c main_v35 y
    refine congrArg _ ?_
    funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega
  funext j
  show k3_pay1 (iblk3 V c 0 t) (iblk3 V c 1 t) j = biasRelu hrow hz (V c main_v62) (V c main_v35) (((cfg3.win 2).blk t).view.emb j)
  rw [hrowblk]
  -- the input block sits where the output block sits
  have h02 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  rw [← h02]
  exact bias_relu_payload3 (iblk3 V c 0 t) (V c main_v35) (V c main_v62) (((cfg3.win 0).blk t).view.emb) (fun y => rfl)
    (fun y => by show win3_0.index t (1 : Fin 2) * 128 + 1 * (y 1).val = (y 1).val; omega) hrow hz j

/-- An index of the result array is in point `t`'s block iff each coordinate is in the block's range on its axis. -/
theorem mem_blk3_2 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- The twenty row blocks tile the result array: row `r` is in the block of point `r / 5000`. -/
theorem cover3_2 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := onto3_2 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the kernel, as one host expression of the arrays it read. -/
theorem final3_2 (hrow : S1x128.BroadcastsInDim S100000x128 (![0, 1] : Fin 2 → Fin 2)) (hz : S_.BroadcastsInDim S100000x128 (![] : Fin 0 → Fin 2)) (c : Dev nD) : (dat3 V c).arrAt 2 cfg3.N = biasRelu hrow hz (V c main_v62) (V c main_v35) :=
  (dat3 V c).arrAt_eq_of_cover 2 (biasRelu hrow hz (V c main_v62) (V c main_v35)) (fun t _ => flushed3 V hrow hz c t) cover3_2

end Region3

end Cert.KernelIdeal.BiasBlocks

end
-- ==== Proof.HeadBlocks.lean ====
/-
  The fused heads kernel, one block of 5000 rows at a time.

  Each grid point loads rows 5000·t … of the [100000, 128] representation and of the [100000, 1] integer column t, and the whole of
  ten small arrays: three [128, 128] / [128, 1] weight arrays per branch already rounded to bf16, and their bias rows. On the block it
  computes two hidden layers max(rep · W + bias row, 0), a scalar head h · w + b of each, picks per row the second head where
  t > 0 and the first elsewhere, and, separately, the sigmoid of a third scalar head of the representation itself. Every row of the
  two results depends on the same row of the representation and of t and on the small arrays only, so the blocks written at
  point t are rows 5000·t … of the host's whole-array expressions; the twenty blocks tile each [100000, 1] result. Rounding to bf16 is
  the identity over the extended reals and each product into zero is the plain sum, so nothing is reordered and nothing is
  assumed finite.
-/
import proofs.«169582_j48704929137156_1_alg».proof.Proof.Gen.KernelIdeal.Frame
import proofs.«169582_j48704929137156_1_alg».proof.Proof.LibConvBlock
import Idealize.ShloMosaic.Lib.Pipeline.Value
import Idealize.ShloMosaic.Lib.ValueIdx
import Idealize.ShloMosaic.PureOps.Ideal.Laws

set_option maxRecDepth 16384

noncomputable section

namespace Cert.KernelIdeal.HeadBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero2 : (![0, 0] : Fin 2 → Nat) = fun _ => 0 := funext fun a => by fin_cases a <;> rfl

/-! ## The whole-array expressions -/

/-- A hidden layer: max(rep · W + the bias row spread over all rows, 0). -/
def hidden (hrow : S1x128.BroadcastsInDim S100000x128 (![0, 1] : Fin 2 → Fin 2)) (hz : S_.BroadcastsInDim S100000x128 (![] : Fin 0 → Fin 2)) {φ : FTy}
    (R : FVec Ideal S100000x128 .f32) (W : FVec Ideal S128x128 φ) (brow : FVec Ideal S1x128 .f32) : FVec Ideal S100000x128 .f32 :=
  maximumf (addf (Host.dotGeneral (DotDims.plain 100000 128 128) none R W) (broadcastInDim S100000x128 ![0, 1] hrow brow))
    (broadcastInDim S100000x128 ![] hz (constant (F := Ideal) S_ .f32 0x00000000#32))

/-- A scalar head: h · w + the one bias entry spread over all rows, a column. -/
def headCol (hb : S1x1.BroadcastsInDim S100000x1 (![0, 1] : Fin 2 → Fin 2)) {φ : FTy}
    (H : FVec Ideal S100000x128 .f32) (w : FVec Ideal S128x1 φ) (b : FVec Ideal S1x1 .f32) : FVec Ideal S100000x1 .f32 :=
  addf (Host.dotGeneral (DotDims.plain 100000 128 1) none H w) (broadcastInDim S100000x1 ![0, 1] hb b)

/-- The sigmoid head of the representation. -/
def sigmoidHead (hb : S1x1.BroadcastsInDim S100000x1 (![0, 1] : Fin 2 → Fin 2)) (R : FVec Ideal S100000x128 .f32) (w : FVec Ideal S128x1 .bf16) (b : FVec Ideal S1x1 .f32) :
    FVec Ideal S100000x1 .f32 :=
  logistic (headCol hb R w b)

/-- The selected head: per row the second branch's head where t > 0, the first branch's elsewhere. -/
def selectedHead (hrow : S1x128.BroadcastsInDim S100000x128 (![0, 1] : Fin 2 → Fin 2)) (hz : S_.BroadcastsInDim S100000x128 (![] : Fin 0 → Fin 2)) (hb : S1x1.BroadcastsInDim S100000x1 (![0, 1] : Fin 2 → Fin 2))
    (R : FVec Ideal S100000x128 .f32) (T : IVec S100000x1 32)
    (w00 : FVec Ideal S128x128 .bf16) (b00 : FVec Ideal S1x128 .f32) (w10 : FVec Ideal S128x128 .bf16) (b10 : FVec Ideal S1x128 .f32)
    (w01 : FVec Ideal S128x1 .bf16) (b01 : FVec Ideal S1x1 .f32) (w11 : FVec Ideal S128x1 .bf16) (b11 : FVec Ideal S1x1 .f32) :
    FVec Ideal S100000x1 .f32 :=
  select (cmpi .sgt T (broadcast S100000x1 (0#32 : BitVec 32)))
    (headCol hb (hidden hrow hz R w10 b10) w11 b11) (headCol hb (hidden hrow hz R w00 b00) w01 b01)

/-! ## On one block -/

theorem block_dims : dot_S5000x128_S128x128_S5000x128_1_0_0_1_n_n = DotDims.plain 5000 128 128 := rfl
theorem head_dims : dot_S5000x128_S128x1_S5000x1_1_0_0_1_n_n = DotDims.plain 5000 128 1 := rfl

/-- Rounding the left operand to bf16 changes nothing over the extended reals. -/
theorem product_round_left {n : Nat} {φ : FTy} (X : FVec Ideal ⟨2, ![100000, 128]⟩ .f32) (W : FVec Ideal ⟨2, ![128, n]⟩ φ) :
    Host.dotGeneral (DotDims.plain 100000 128 n) none (truncf .bf16 X bitsLt_bf16_f32) W
      = Host.dotGeneral (DotDims.plain 100000 128 n) none X W := by
  funext j
  exact (Ideal.dotGeneral_apply (DotDims.plain 100000 128 n) none default (truncf .bf16 X bitsLt_bf16_f32) W j).trans
    (Ideal.dotGeneral_apply (DotDims.plain 100000 128 n) none default X W j).symm

/-- A hidden layer as the kernel computes it on one block of rows. -/
def hiddenBlk (x0 : FVec Ideal S5000x128 .f32) (w : FVec Ideal S128x128 .bf16) (brow : FVec Ideal S1x128 .f32) : FVec Ideal S5000x128 .f32 :=
  maximumf (addf (matmul dot_S5000x128_S128x128_S5000x128_1_0_0_1_n_n none
        (truncf .bf16 (shapeCast S5000x128 x0 shapeCasts_S5000x128_S5000x128) bitsLt_bf16_f32)
        (shapeCast S128x128 w shapeCasts_S128x128_S128x128) (constant S5000x128 .f32 0x00000000#32))
      (broadcastTo S5000x128 (shapeCast S1x128 brow shapeCasts_S1x128_S1x128) broadcasts_S1x128_S5000x128))
    (broadcast S5000x128 (Scalar.ofBits (F := Ideal) .f32 0x00000000#32))

/-- A scalar head as the kernel computes it on one block of rows, from the block of the layer below. -/
def headBlk (h : FVec Ideal S5000x128 .f32) (w : FVec Ideal S128x1 .bf16) (b : FVec Ideal S1x1 .f32) : FVec Ideal S5000x1 .f32 :=
  addf (matmul dot_S5000x128_S128x1_S5000x1_1_0_0_1_n_n none (truncf .bf16 h bitsLt_bf16_f32)
        (shapeCast S128x1 w shapeCasts_S128x1_S128x1) (constant S5000x1 .f32 0x00000000#32))
      (broadcastTo S5000x1 (shapeCast S1x1 b shapeCasts_S1x1_S1x1) broadcasts_S1x1_S5000x1)

/-- The body's two stored values are these pieces put together. -/
theorem sigmoid_payload_eq (x0 : FVec Ideal S5000x128 .f32) (wpp : FVec Ideal S128x1 .bf16) (bpp : FVec Ideal S1x1 .f32) :
    k4_pay2 (F := Ideal) (k4_pay3 (F := Ideal) x0) wpp bpp
      = logistic (headBlk (shapeCast S5000x128 x0 shapeCasts_S5000x128_S5000x128) wpp bpp) := rfl

theorem selected_payload_eq (x0 : FVec Ideal S5000x128 .f32) (tb : IVec S5000x1 32)
    (w00 : FVec Ideal S128x128 .bf16) (b00 : FVec Ideal S1x128 .f32) (w10 : FVec Ideal S128x128 .bf16) (b10 : FVec Ideal S1x128 .f32)
    (w01 : FVec Ideal S128x1 .bf16) (b01 : FVec Ideal S1x1 .f32) (w11 : FVec Ideal S128x1 .bf16) (b11 : FVec Ideal S1x1 .f32) :
    k4_pay1 (F := Ideal) (k4_pay4 (F := Ideal) tb) (k4_pay5 (F := Ideal) x0 w00 b00 w01 b01) (k4_pay6 (F := Ideal) x0 w10 b10 w11) b11
      = select (cmpi .sgt (shapeCast S5000x1 tb shapeCasts_S5000x1_S5000x1) (broadcast S5000x1 (0#32 : BitVec 32)))
          (headBlk (hiddenBlk x0 w10 b10) w11 b11) (headBlk (hiddenBlk x0 w00 b00) w01 b01) := rfl

/-- A hidden layer on one block of rows, at a block index, is the whole-array hidden layer read where the block puts the
    index (rows shifted by the block's offset, columns kept). -/
theorem hidden_block (x0 : FVec Ideal S5000x128 .f32) (w : FVec Ideal S128x128 .bf16) (brow : FVec Ideal S1x128 .f32)
    (R : FVec Ideal S100000x128 .f32) (ex : S5000x128.Idx → S100000x128.Idx) (off : Nat)
    (hx : ∀ y, x0 y = R (ex y)) (hex0 : ∀ y, (ex y 0).val = off + (y 0).val) (hex1 : ∀ y, (ex y 1).val = (y 1).val)
    (hrow : S1x128.BroadcastsInDim S100000x128 (![0, 1] : Fin 2 → Fin 2)) (hz : S_.BroadcastsInDim S100000x128 (![] : Fin 0 → Fin 2)) (j : S5000x128.Idx) :
    hiddenBlk x0 w brow j = hidden hrow hz R w brow (ex j) := by
  unfold hiddenBlk
  rw [shapeCast_self, shapeCast_self, shapeCast_self, block_dims]
  unfold hidden
  rw [maximumf_apply, maximumf_apply,
    Cert.Lib.linear_row_block none (truncf .bf16 x0 bitsLt_bf16_f32) w brow (truncf .bf16 R bitsLt_bf16_f32) ex ex off
      (fun y => hx y) hex0 hex1 hex0 hex1 broadcasts_S1x128_S5000x128 hrow j,
    Cert.Lib.splat_apply, product_round_left]
  rfl

/-- A scalar head on one block of rows, at a block index, is the whole-array head read where the result block puts the index. -/
theorem head_block (h : FVec Ideal S5000x128 .f32) (w : FVec Ideal S128x1 .bf16) (b : FVec Ideal S1x1 .f32)
    (H : FVec Ideal S100000x128 .f32) (ex : S5000x128.Idx → S100000x128.Idx) (eo : S5000x1.Idx → S100000x1.Idx) (off : Nat)
    (hh : ∀ y, h y = H (ex y)) (hex0 : ∀ y, (ex y 0).val = off + (y 0).val) (hex1 : ∀ y, (ex y 1).val = (y 1).val)
    (heo0 : ∀ y, (eo y 0).val = off + (y 0).val) (heo1 : ∀ y, (eo y 1).val = (y 1).val)
    (hb : S1x1.BroadcastsInDim S100000x1 (![0, 1] : Fin 2 → Fin 2)) (j : S5000x1.Idx) :
    headBlk h w b j = headCol hb H w b (eo j) := by
  unfold headBlk
  rw [shapeCast_self, shapeCast_self, head_dims]
  unfold headCol
  rw [Cert.Lib.linear_row_block none (truncf .bf16 h bitsLt_bf16_f32) w b (truncf .bf16 H bitsLt_bf16_f32) ex eo off
      (fun y => hh y) hex0 hex1 heo0 heo1 broadcasts_S1x1_S5000x1 hb j, product_round_left]

/-- The sigmoid head's stored value on one block, at a block index. -/
theorem sigmoid_block (x0 : FVec Ideal S5000x128 .f32) (wpp : FVec Ideal S128x1 .bf16) (bpp : FVec Ideal S1x1 .f32)
    (R : FVec Ideal S100000x128 .f32) (ex : S5000x128.Idx → S100000x128.Idx) (eo : S5000x1.Idx → S100000x1.Idx) (off : Nat)
    (hx : ∀ y, x0 y = R (ex y)) (hex0 : ∀ y, (ex y 0).val = off + (y 0).val) (hex1 : ∀ y, (ex y 1).val = (y 1).val)
    (heo0 : ∀ y, (eo y 0).val = off + (y 0).val) (heo1 : ∀ y, (eo y 1).val = (y 1).val)
    (hb : S1x1.BroadcastsInDim S100000x1 (![0, 1] : Fin 2 → Fin 2)) (j : S5000x1.Idx) :
    k4_pay2 (F := Ideal) (k4_pay3 (F := Ideal) x0) wpp bpp j = sigmoidHead hb R wpp bpp (eo j) := by
  rw [sigmoid_payload_eq]
  show FloatOps.logistic (headBlk (shapeCast S5000x128 x0 shapeCasts_S5000x128_S5000x128) wpp bpp j)
    = FloatOps.logistic (headCol hb R wpp bpp (eo j))
  refine congrArg _ ?_
  exact head_block (shapeCast S5000x128 x0 shapeCasts_S5000x128_S5000x128) wpp bpp R ex eo off
    (fun y => (congrFun (shapeCast_self x0 shapeCasts_S5000x128_S5000x128) y).trans (hx y)) hex0 hex1 heo0 heo1 hb j

/-- The selected head's stored value on one block, at a block index. -/
theorem selected_block (x0 : FVec Ideal S5000x128 .f32) (tb : IVec S5000x1 32)
    (w00 : FVec Ideal S128x128 .bf16) (b00 : FVec Ideal S1x128 .f32) (w10 : FVec Ideal S128x128 .bf16) (b10 : FVec Ideal S1x128 .f32)
    (w01 : FVec Ideal S128x1 .bf16) (b01 : FVec Ideal S1x1 .f32) (w11 : FVec Ideal S128x1 .bf16) (b11 : FVec Ideal S1x1 .f32)
    (R : FVec Ideal S100000x128 .f32) (T : IVec S100000x1 32)
    (ex : S5000x128.Idx → S100000x128.Idx) (eo : S5000x1.Idx → S100000x1.Idx) (off : Nat)
    (hx : ∀ y, x0 y = R (ex y)) (ht : ∀ y, tb y = T (eo y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hrow : S1x128.BroadcastsInDim S100000x128 (![0, 1] : Fin 2 → Fin 2)) (hz : S_.BroadcastsInDim S100000x128 (![] : Fin 0 → Fin 2)) (hb : S1x1.BroadcastsInDim S100000x1 (![0, 1] : Fin 2 → Fin 2)) (j : S5000x1.Idx) :
    k4_pay1 (F := Ideal) (k4_pay4 (F := Ideal) tb) (k4_pay5 (F := Ideal) x0 w00 b00 w01 b01) (k4_pay6 (F := Ideal) x0 w10 b10 w11) b11 j
      = selectedHead hrow hz hb R T w00 b00 w10 b10 w01 b01 w11 b11 (eo j) := by
  rw [selected_payload_eq]
  show Scalar.select (IntOp.cmpi .sgt (shapeCast S5000x1 tb shapeCasts_S5000x1_S5000x1 j) (0#32 : BitVec 32))
      (headBlk (hiddenBlk x0 w10 b10) w11 b11 j) (headBlk (hiddenBlk x0 w00 b00) w01 b01 j)
    = Scalar.select (IntOp.cmpi .sgt (T (eo j)) (0#32 : BitVec 32))
      (headCol hb (hidden hrow hz R w10 b10) w11 b11 (eo j)) (headCol hb (hidden hrow hz R w00 b00) w01 b01 (eo j))
  rw [shapeCast_self, ht,
    head_block (hiddenBlk x0 w10 b10) w11 b11 (hidden hrow hz R w10 b10) ex eo off
      (fun y => hidden_block x0 w10 b10 R ex off hx hex0 hex1 hrow hz y) hex0 hex1 heo0 heo1 hb j,
    head_block (hiddenBlk x0 w00 b00) w01 b01 (hidden hrow hz R w00 b00) ex eo off
      (fun y => hidden_block x0 w00 b00 R ex off hx hex0 hex1 hrow hz y) hex0 hex1 heo0 heo1 hb j]

/-! ## The windows over the grid -/

/-! The printed index maps, decided over the grid: the representation's rows, t's rows and the two results' rows move with the
    point; the ten small arrays stay. -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)
theorem idx4_8 : ∀ t : Fin cfg4.N, win4_8.index t (0 : Fin 2) = 0 ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)
theorem idx4_11 : ∀ t : Fin cfg4.N, win4_11.index t (0 : Fin 2) = 0 ∧ win4_11.index t (1 : Fin 2) = 0 :=
  (by decide +kernel : ∀ t : Fin grid4.N, _)
theorem idx4_12 : ∀ t : Fin cfg4.N, win4_12.index t (0 : Fin 2) = t.val ∧ win4_12.index t (1 : Fin 2) = 0 :=
  (by decide +kernel : ∀ t : Fin grid4.N, _)
theorem idx4_13 : ∀ t : Fin cfg4.N, win4_13.index t (0 : Fin 2) = t.val ∧ win4_13.index t (1 : Fin 2) = 0 :=
  (by decide +kernel : ∀ t : Fin grid4.N, _)

theorem onto4_12 : ∀ q : Fin 20, ∃ t : Fin cfg4.N, win4_12.index t = ![q.val, 0] :=
  (by decide +kernel : ∀ q : Fin 20, ∃ t : Fin grid4.N, win4_12.index t = ![q.val, 0])
theorem onto4_13 : ∀ q : Fin 20, ∃ t : Fin cfg4.N, win4_13.index t = ![q.val, 0] :=
  (by decide +kernel : ∀ q : Fin 20, ∃ t : Fin grid4.N, win4_13.index t = ![q.val, 0])

variable (V : (c : Dev nD) → (b : Ref sig .tc) → Buf (Elt Ideal) ((c : Thread nD τ).loc b))

/-! A window whose block is its whole array reads the array. -/
theorem whole4_2 (c : Dev nD) (t : Fin cfg4.N) : iblk4 V c 2 t = V c main_v65 := by
  obtain ⟨e0, e1⟩ := idx4_2 t
  funext y
  show V c main_v65 (((cfg4.win 2).blk t).view.emb y) = V c main_v65 y
  refine congrArg _ ?_
  funext a; apply Fin.ext
  match a with
  | ⟨0, _⟩ => show win4_2.index t (0 : Fin 2) * 128 + 1 * (y 0).val = (y 0).val; omega
  | ⟨1, _⟩ => show win4_2.index t (1 : Fin 2) * 128 + 1 * (y 1).val = (y 1).val; omega
theorem whole4_3 (c : Dev nD) (t : Fin cfg4.N) : iblk4 V c 3 t = V c main_v70 := by
  obtain ⟨e0, e1⟩ := idx4_3 t
  funext y
  show V c main_v70 (((cfg4.win 3).blk t).view.emb y) = V c main_v70 y
  refine congrArg _ ?_
  funext a; apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega
theorem whole4_4 (c : Dev nD) (t : Fin cfg4.N) : iblk4 V c 4 t = V c main_v66 := by
  obtain ⟨e0, e1⟩ := idx4_4 t
  funext y
  show V c main_v66 (((cfg4.win 4).blk t).view.emb y) = V c main_v66 y
  refine congrArg _ ?_
  funext a; apply Fin.ext
  match a with
  | ⟨0, _⟩ => show win4_4.index t (0 : Fin 2) * 128 + 1 * (y 0).val = (y 0).val; omega
  | ⟨1, _⟩ => show win4_4.index t (1 : Fin 2) * 128 + 1 * (y 1).val = (y 1).val; omega
theorem whole4_5 (c : Dev nD) (t : Fin cfg4.N) : iblk4 V c 5 t = V c main_v71 := by
  obtain ⟨e0, e1⟩ := idx4_5 t
  funext y
  show V c main_v71 (((cfg4.win 5).blk t).view.emb y) = V c main_v71 y
  refine congrArg _ ?_
  funext a; apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega
theorem whole4_6 (c : Dev nD) (t : Fin cfg4.N) : iblk4 V c 6 t = V c main_v67 := by
  obtain ⟨e0, e1⟩ := idx4_6 t
  funext y
  show V c main_v67 (((cfg4.win 6).blk t).view.emb y) = V c main_v67 y
  refine congrArg _ ?_
  funext a; apply Fin.ext
  match a with
  | ⟨0, _⟩ => show win4_6.index t (0 : Fin 2) * 128 + 1 * (y 0).val = (y 0).val; omega
  | ⟨1, _⟩ => show win4_6.index t (1 : Fin 2) * 1 + 1 * (y 1).val = (y 1).val; omega
theorem whole4_7 (c : Dev nD) (t : Fin cfg4.N) : iblk4 V c 7 t = V c main_v72 := by
  obtain ⟨e0, e1⟩ := idx4_7 t
  funext y
  show V c main_v72 (((cfg4.win 7).blk t).view.emb y) = V c main_v72 y
  refine congrArg _ ?_
  funext a; apply Fin.ext
  match a with
  | ⟨0, _⟩ => show win4_7.index t (0 : Fin 2) * 1 + 1 * (y 0).val = (y 0).val; omega
  | ⟨1, _⟩ => show win4_7.index t (1 : Fin 2) * 1 + 1 * (y 1).val = (y 1).val; omega
theorem whole4_8 (c : Dev nD) (t : Fin cfg4.N) : iblk4 V c 8 t = V c main_v68 := by
  obtain ⟨e0, e1⟩ := idx4_8 t
  funext y
  show V c main_v68 (((cfg4.win 8).blk t).view.emb y) = V c main_v68 y
  refine congrArg _ ?_
  funext a; apply Fin.ext
  match a with
  | ⟨0, _⟩ => show win4_8.index t (0 : Fin 2) * 128 + 1 * (y 0).val = (y 0).val; omega
  | ⟨1, _⟩ => show win4_8.index t (1 : Fin 2) * 1 + 1 * (y 1).val = (y 1).val; omega
theorem whole4_9 (c : Dev nD) (t : Fin cfg4.N) : iblk4 V c 9 t = V c main_v73 := by
  obtain ⟨e0, e1⟩ := idx4_9 t
  funext y
  show V c main_v73 (((cfg4.win 9).blk t).view.emb y) = V c main_v73 y
  refine congrArg _ ?_
  funext a; apply Fin.ext
  match a with
  | ⟨0, _⟩ => show win4_9.index t (0 : Fin 2) * 1 + 1 * (y 0).val = (y 0).val; omega
  | ⟨1, _⟩ => show win4_9.index t (1 : Fin 2) * 1 + 1 * (y 1).val = (y 1).val; omega
theorem whole4_10 (c : Dev nD) (t : Fin cfg4.N) : iblk4 V c 10 t = V c main_v69 := by
  obtain ⟨e0, e1⟩ := idx4_10 t
  funext y
  show V c main_v69 (((cfg4.win 10).blk t).view.emb y) = V c main_v69 y
  refine congrArg _ ?_
  funext a; apply Fin.ext
  match a with
  | ⟨0, _⟩ => show win4_10.index t (0 : Fin 2) * 128 + 1 * (y 0).val = (y 0).val; omega
  | ⟨1, _⟩ => show win4_10.index t (1 : Fin 2) * 1 + 1 * (y 1).val = (y 1).val; omega
theorem whole4_11 (c : Dev nD) (t : Fin cfg4.N) : iblk4 V c 11 t = V c main_v74 := by
  obtain ⟨e0, e1⟩ := idx4_11 t
  funext y
  show V c main_v74 (((cfg4.win 11).blk t).view.emb y) = V c main_v74 y
  refine congrArg _ ?_
  funext a; apply Fin.ext
  match a with
  | ⟨0, _⟩ => show win4_11.index t (0 : Fin 2) * 1 + 1 * (y 0).val = (y 0).val; omega
  | ⟨1, _⟩ => show win4_11.index t (1 : Fin 2) * 1 + 1 * (y 1).val = (y 1).val; omega

/-! ## The sigmoid head's result -/

/-- What point `t` writes back to the first result is block `t` of the whole sigmoid head. -/
theorem flushed4_12 (hb : S1x1.BroadcastsInDim S100000x1 (![0, 1] : Fin 2 → Fin 2)) (c : Dev nD) (t : Fin cfg4.N) :
    (dat4 V c).flushed 12 t = ((cfg4.win 12).blk t).view.read (Elt Ideal) (sigmoidHead hb (V c main_v63) (V c main_v69) (V c main_v74)) := by
  show (cfg4.win 12).cut (grid4.coords t) ((dat4 V c).after 12 t) = _
  rw [after4_12]
  unfold out4_12
  rw [View.canon_unit_zero zero2]
  simp only [View.ld_unit_zero (S := S5000x128) zero2, View.ld_unit_zero (S := S128x1) zero2, View.ld_unit_zero (S := S1x1) zero2]
  obtain ⟨e0_0, e0_1⟩ := idx4_0 t
  obtain ⟨e12_0, e12_1⟩ := idx4_12 t
  funext j
  show k4_pay2 (k4_pay3 (iblk4 V c 0 t)) (iblk4 V c 10 t) (iblk4 V c 11 t) j = sigmoidHead hb (V c main_v63) (V c main_v69) (V c main_v74) (((cfg4.win 12).blk t).view.emb j)
  rw [whole4_10 V c t, whole4_11 V c t]
  exact sigmoid_block (iblk4 V c 0 t) (V c main_v69) (V c main_v74) (V c main_v63)
      (((cfg4.win 0).blk t).view.emb) (((cfg4.win 12).blk t).view.emb) (5000 * t.val) (fun y => rfl)
      (fun y => by show win4_0.index t (0 : Fin 2) * 5000 + 1 * (y 0).val = 5000 * t.val + (y 0).val; omega)
      (fun y => by show win4_0.index t (1 : Fin 2) * 128 + 1 * (y 1).val = (y 1).val; omega)
      (fun y => by show win4_12.index t (0 : Fin 2) * 5000 + 1 * (y 0).val = 5000 * t.val + (y 0).val; omega)
      (fun y => by show win4_12.index t (1 : Fin 2) * 1 + 1 * (y 1).val = (y 1).val; omega)
      hb j

/-- An index of the result array is in point `t`'s block iff each coordinate is in the block's range on its axis. -/
theorem mem_blk4_12 (t : Fin cfg4.N) (i : S100000x1.Idx) :
    i ∈ ((cfg4.win 12).blk t).view.set ↔ ∀ a : Fin 2, win4_12.index t a * S5000x1.size a ≤ (i a).val ∧ (i a).val < win4_12.index t a * S5000x1.size a + S5000x1.size a := by
  show i ∈ ((View.whole main_v75_0).slice (win4_12.rect t)).set ↔ _
  rw [View.set_slice_whole, Rect.mem_set_unit]
  exact Iff.rfl

/-- The twenty row blocks tile the result array: row `r` is in the block of point `r / 5000`. -/
theorem cover4_12 (i : S100000x1.Idx) : ∃ t : Fin cfg4.N, (cfg4.win 12).flush t = true ∧ i ∈ ((cfg4.win 12).blk t).view.set := by
  have hi0 : (i 0).val < 100000 := (i 0).isLt
  have hi1 : (i 1).val < 1 := (i 1).isLt
  obtain ⟨t, ht⟩ := onto4_12 ⟨(i 0).val / 5000, by omega⟩
  have q0 : win4_12.index t (0 : Fin 2) = (i 0).val / 5000 := congrFun ht 0
  have q1 : win4_12.index t (1 : Fin 2) = 0 := congrFun ht 1
  refine ⟨t, flush4_12 t, ?_⟩
  rw [mem_blk4_12]
  intro a
  match a with
  | ⟨0, _⟩ => show win4_12.index t (0 : Fin 2) * 5000 ≤ (i 0).val ∧ (i 0).val < win4_12.index t (0 : Fin 2) * 5000 + 5000; omega
  | ⟨1, _⟩ => show win4_12.index t (1 : Fin 2) * 1 ≤ (i 1).val ∧ (i 1).val < win4_12.index t (1 : Fin 2) * 1 + 1; omega

/-- The result array after the kernel, as one host expression of the arrays it read. -/
theorem final4_12 (hb : S1x1.BroadcastsInDim S100000x1 (![0, 1] : Fin 2 → Fin 2)) (c : Dev nD) : (dat4 V c).arrAt 12 cfg4.N = sigmoidHead hb (V c main_v63) (V c main_v69) (V c main_v74) :=
  (dat4 V c).arrAt_eq_of_cover 12 (sigmoidHead hb (V c main_v63) (V c main_v69) (V c main_v74)) (fun t _ => flushed4_12 V hb c t) cover4_12

/-! ## The selected head's result -/

set_option maxHeartbeats 1000000 in
/-- What point `t` writes back to the second result is block `t` of the whole selected head. -/
theorem flushed4_13 (hrow : S1x128.BroadcastsInDim S100000x128 (![0, 1] : Fin 2 → Fin 2)) (hz : S_.BroadcastsInDim S100000x128 (![] : Fin 0 → Fin 2)) (hb : S1x1.BroadcastsInDim S100000x1 (![0, 1] : Fin 2 → Fin 2)) (c : Dev nD) (t : Fin cfg4.N) :
    (dat4 V c).flushed 13 t = ((cfg4.win 13).blk t).view.read (Elt Ideal) (selectedHead hrow hz hb (V c main_v63) (V c main_v64) (V c main_v65) (V c main_v70) (V c main_v66) (V c main_v71) (V c main_v67) (V c main_v72) (V c main_v68) (V c main_v73)) := by
  show (cfg4.win 13).cut (grid4.coords t) ((dat4 V c).after 13 t) = _
  rw [after4_13]
  unfold out4_13
  rw [View.canon_unit_zero zero2]
  simp only [View.ld_unit_zero (S := S5000x128) zero2, View.ld_unit_zero (S := S5000x1) zero2, View.ld_unit_zero (S := S128x128) zero2,
    View.ld_unit_zero (S := S1x128) zero2, View.ld_unit_zero (S := S128x1) zero2, View.ld_unit_zero (S := S1x1) zero2]
  obtain ⟨e0_0, e0_1⟩ := idx4_0 t
  obtain ⟨e1_0, e1_1⟩ := idx4_1 t
  obtain ⟨e13_0, e13_1⟩ := idx4_13 t
  funext j
  show k4_pay1 (k4_pay4 (iblk4 V c 1 t)) (k4_pay5 (iblk4 V c 0 t) (iblk4 V c 2 t) (iblk4 V c 3 t) (iblk4 V c 6 t) (iblk4 V c 7 t))
      (k4_pay6 (iblk4 V c 0 t) (iblk4 V c 4 t) (iblk4 V c 5 t) (iblk4 V c 8 t)) (iblk4 V c 9 t) j
    = selectedHead hrow hz hb (V c main_v63) (V c main_v64) (V c main_v65) (V c main_v70) (V c main_v66) (V c main_v71) (V c main_v67) (V c main_v72) (V c main_v68) (V c main_v73) (((cfg4.win 13).blk t).view.emb j)
  rw [whole4_2 V c t, whole4_3 V c t, whole4_4 V c t, whole4_5 V c t, whole4_6 V c t, whole4_7 V c t, whole4_8 V c t, whole4_9 V c t]
  -- t's block sits where the result block sits
  have h1_13 : ∀ y, ((cfg4.win 1).blk t).view.emb y = ((cfg4.win 13).blk t).view.emb y := fun y => by
    funext a; apply Fin.ext
    match a with
    | ⟨0, _⟩ => show win4_1.index t (0 : Fin 2) * 5000 + 1 * (y 0).val = win4_13.index t (0 : Fin 2) * 5000 + 1 * (y 0).val; omega
    | ⟨1, _⟩ => show win4_1.index t (1 : Fin 2) * 1 + 1 * (y 1).val = win4_13.index t (1 : Fin 2) * 1 + 1 * (y 1).val; omega
  exact selected_block (iblk4 V c 0 t) (iblk4 V c 1 t) (V c main_v65) (V c main_v70) (V c main_v66) (V c main_v71)
      (V c main_v67) (V c main_v72) (V c main_v68) (V c main_v73) (V c main_v63) (V c main_v64)
      (((cfg4.win 0).blk t).view.emb) (((cfg4.win 13).blk t).view.emb) (5000 * t.val) (fun y => rfl)
      (fun y => congrArg (V c main_v64) (h1_13 y))
      (fun y => by show win4_0.index t (0 : Fin 2) * 5000 + 1 * (y 0).val = 5000 * t.val + (y 0).val; omega)
      (fun y => by show win4_0.index t (1 : Fin 2) * 128 + 1 * (y 1).val = (y 1).val; omega)
      (fun y => by show win4_13.index t (0 : Fin 2) * 5000 + 1 * (y 0).val = 5000 * t.val + (y 0).val; omega)
      (fun y => by show win4_13.index t (1 : Fin 2) * 1 + 1 * (y 1).val = (y 1).val; omega)
      hrow hz hb j

/-- An index of the result array is in point `t`'s block iff each coordinate is in the block's range on its axis. -/
theorem mem_blk4_13 (t : Fin cfg4.N) (i : S100000x1.Idx) :
    i ∈ ((cfg4.win 13).blk t).view.set ↔ ∀ a : Fin 2, win4_13.index t a * S5000x1.size a ≤ (i a).val ∧ (i a).val < win4_13.index t a * S5000x1.size a + S5000x1.size a := by
  show i ∈ ((View.whole main_v75_1).slice (win4_13.rect t)).set ↔ _
  rw [View.set_slice_whole, Rect.mem_set_unit]
  exact Iff.rfl

/-- The twenty row blocks tile the result array: row `r` is in the block of point `r / 5000`. -/
theorem cover4_13 (i : S100000x1.Idx) : ∃ t : Fin cfg4.N, (cfg4.win 13).flush t = true ∧ i ∈ ((cfg4.win 13).blk t).view.set := by
  have hi0 : (i 0).val < 100000 := (i 0).isLt
  have hi1 : (i 1).val < 1 := (i 1).isLt
  obtain ⟨t, ht⟩ := onto4_13 ⟨(i 0).val / 5000, by omega⟩
  have q0 : win4_13.index t (0 : Fin 2) = (i 0).val / 5000 := congrFun ht 0
  have q1 : win4_13.index t (1 : Fin 2) = 0 := congrFun ht 1
  refine ⟨t, flush4_13 t, ?_⟩
  rw [mem_blk4_13]
  intro a
  match a with
  | ⟨0, _⟩ => show win4_13.index t (0 : Fin 2) * 5000 ≤ (i 0).val ∧ (i 0).val < win4_13.index t (0 : Fin 2) * 5000 + 5000; omega
  | ⟨1, _⟩ => show win4_13.index t (1 : Fin 2) * 1 ≤ (i 1).val ∧ (i 1).val < win4_13.index t (1 : Fin 2) * 1 + 1; omega

/-- The result array after the kernel, as one host expression of the arrays it read. -/
theorem final4_13 (hrow : S1x128.BroadcastsInDim S100000x128 (![0, 1] : Fin 2 → Fin 2)) (hz : S_.BroadcastsInDim S100000x128 (![] : Fin 0 → Fin 2)) (hb : S1x1.BroadcastsInDim S100000x1 (![0, 1] : Fin 2 → Fin 2)) (c : Dev nD) : (dat4 V c).arrAt 13 cfg4.N = selectedHead hrow hz hb (V c main_v63) (V c main_v64) (V c main_v65) (V c main_v70) (V c main_v66) (V c main_v71) (V c main_v67) (V c main_v72) (V c main_v68) (V c main_v73) :=
  (dat4 V c).arrAt_eq_of_cover 13 (selectedHead hrow hz hb (V c main_v63) (V c main_v64) (V c main_v65) (V c main_v70) (V c main_v66) (V c main_v71) (V c main_v67) (V c main_v72) (V c main_v68) (V c main_v73)) (fun t _ => flushed4_13 V hrow hz hb c t) cover4_13

end Cert.KernelIdeal.HeadBlocks

end
-- ==== Proof.Boundaries.lean ====
/-
  What the idealized kernel's buffers hold at each kernel's entry.

  Between the five kernels the host computes, once, the edge lists with one self-loop appended per node (source s, destination d), each
  node's degree, the per-edge normalisation dinv[s] · dinv[d] as a column, and, after each linear kernel, the graph aggregation: gather the
  product's rows at s, scale each by its edge's normalisation, add the rows landing on each destination. Each fact below reads one buffer
  at one boundary as the host operations' term of the argument arrays (or of the previous kernel's result), walking back through the
  stretches of host operations and the kernels that do not write it. The terms are stated with the reference's own stages, which
  are the same operations of the same arguments.
-/
import proofs.«169582_j48704929137156_1_alg».proof.Proof.Gen.KernelIdeal.Frame
import proofs.«169582_j48704929137156_1_alg».proof.Proof.RefRead
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen

variable {F : FTy → Type} [FloatOps F]

/-- One graph aggregation of a [100000, 128] array over the edge list: every edge, and every node's self-loop, carries its source's
    row, scaled by the edge's normalisation, to its destination's row; the rows landing on one node are added up. -/
def aggregate (xw : (⟨S100000x128, .f32⟩ : BufTy).Contents (Elt F)) (E : (⟨S2x1600000, .i32⟩ : BufTy).Contents (Elt F)) :
    (⟨S100000x128, .f32⟩ : BufTy).Contents (Elt F) :=
  Host.scatterAdd Cert.ReferenceIdeal.scatter_S100000x128_S1700000x1_S1700000x128_1_0_0_1 (Cert.ReferenceIdeal.ReadP.val_main_v42 (F := F)) (Cert.ReferenceIdeal.ReadP.val_main_v43 (F := F) E)
    (mulf (Host.gather Cert.ReferenceIdeal.gather_S100000x128_S1700000x1_S1700000x128_1_0_n_n_0_1_1128 xw (Cert.ReferenceIdeal.ReadP.val_main_v37 (F := F) E))
      (Cert.ReferenceIdeal.ReadP.val_main_v40 (F := F) E))

variable (m : (ℓ : Loc nD τ sig) → Buf (Elt F) ℓ) (ρ : Dev nD → PrngReg)

/-! ## The first linear kernel's entry -/

theorem arg0_at3 (c : Dev nD) : W3 m ρ c (Proc.devRef .tc main_arg0) = m ((c : Thread nD τ).loc main_arg0) := by
  show StableHlo.after hostOps0_2 (W2 m ρ c) (Proc.devRef .tc main_arg0) = _
  after_results

theorem v32_at3 (c : Dev nD) : W3 m ρ c (Proc.devRef .tc main_v32) = truncf .bf16 (m ((c : Thread nD τ).loc main_arg4)) bitsLt_bf16_f32 := by
  show StableHlo.after hostOps0_2 (W2 m ρ c) (Proc.devRef .tc main_v32) = _
  after_results

/-! ## The graph's quantities, computed before the first kernel and never written again -/

theorem v5_at3 (c : Dev nD) : W3 m ρ c (Proc.devRef .tc main_v5) = Cert.ReferenceIdeal.ReadP.val_main_v5 (F := F) (m ((c : Thread nD τ).loc main_arg3)) := by
  show StableHlo.after hostOps0_2 (W2 m ρ c) (Proc.devRef .tc main_v5) = _
  after_results
  rfl
theorem v6_at3 (c : Dev nD) : W3 m ρ c (Proc.devRef .tc main_v6) = Cert.ReferenceIdeal.ReadP.val_main_v6 (F := F) (m ((c : Thread nD τ).loc main_arg3)) := by
  show StableHlo.after hostOps0_2 (W2 m ρ c) (Proc.devRef .tc main_v6) = _
  after_results
  rfl
/-! The normalisation column, one stretch of host operations at a time: the degree test and the power (first stretch), the
    select between them (second), the two gathers, their product and its recast as a column (third). -/
theorem v12_at1 (c : Dev nD) : W1 m ρ c (Proc.devRef .tc main_v12) = Cert.ReferenceIdeal.ReadP.val_main_v12 (F := F) (m ((c : Thread nD τ).loc main_arg3)) := by
  show StableHlo.after hostOps0 (W0 m ρ c) (Proc.devRef .tc main_v12) = _
  after_results_simp
  rfl
theorem v14_at1 (c : Dev nD) : W1 m ρ c (Proc.devRef .tc main_v14) = Cert.ReferenceIdeal.ReadP.val_main_v14 (F := F) (m ((c : Thread nD τ).loc main_arg3)) := by
  show StableHlo.after hostOps0 (W0 m ρ c) (Proc.devRef .tc main_v14) = _
  after_results_simp
  rfl
theorem cst3_at1 (c : Dev nD) : W1 m ρ c (Proc.devRef .tc main_cst_3) = Cert.ReferenceIdeal.ReadP.val_main_cst_3 (F := F) := by
  show StableHlo.after hostOps0 (W0 m ρ c) (Proc.devRef .tc main_cst_3) = _
  after_results_simp
  rfl
theorem v5_at1 (c : Dev nD) : W1 m ρ c (Proc.devRef .tc main_v5) = Cert.ReferenceIdeal.ReadP.val_main_v5 (F := F) (m ((c : Thread nD τ).loc main_arg3)) := by
  show StableHlo.after hostOps0 (W0 m ρ c) (Proc.devRef .tc main_v5) = _
  after_results_simp
  rfl
theorem v6_at1 (c : Dev nD) : W1 m ρ c (Proc.devRef .tc main_v6) = Cert.ReferenceIdeal.ReadP.val_main_v6 (F := F) (m ((c : Thread nD τ).loc main_arg3)) := by
  show StableHlo.after hostOps0 (W0 m ρ c) (Proc.devRef .tc main_v6) = _
  after_results_simp
  rfl
theorem v15_at2 (c : Dev nD) : W2 m ρ c (Proc.devRef .tc main_v15) = Cert.ReferenceIdeal.ReadP.val_main_v15 (F := F) (m ((c : Thread nD τ).loc main_arg3)) := by
  show StableHlo.after hostOps0_1 (W1 m ρ c) (Proc.devRef .tc main_v15) = _
  generalize hW : W1 m ρ c = Wx
  after_results
  subst hW
  rw [v12_at1, v14_at1, cst3_at1]
  rfl
theorem v5_at2 (c : Dev nD) : W2 m ρ c (Proc.devRef .tc main_v5) = Cert.ReferenceIdeal.ReadP.val_main_v5 (F := F) (m ((c : Thread nD τ).loc main_arg3)) := by
  show StableHlo.after hostOps0_1 (W1 m ρ c) (Proc.devRef .tc main_v5) = _
  generalize hW : W1 m ρ c = Wx
  after_results
  subst hW
  exact v5_at1 m ρ c
theorem v6_at2 (c : Dev nD) : W2 m ρ c (Proc.devRef .tc main_v6) = Cert.ReferenceIdeal.ReadP.val_main_v6 (F := F) (m ((c : Thread nD τ).loc main_arg3)) := by
  show StableHlo.after hostOps0_1 (W1 m ρ c) (Proc.devRef .tc main_v6) = _
  generalize hW : W1 m ρ c = Wx
  after_results
  subst hW
  exact v6_at1 m ρ c
set_option maxHeartbeats 4000000 in
theorem v31_at3 (c : Dev nD) : W3 m ρ c (Proc.devRef .tc main_v31) = Cert.ReferenceIdeal.ReadP.val_main_v39 (F := F) (m ((c : Thread nD τ).loc main_arg3)) := by
  show StableHlo.after hostOps0_2 (W2 m ρ c) (Proc.devRef .tc main_v31) = _
  generalize hW : W2 m ρ c = Wx
  after_results_simp
  subst hW
  rw [v15_at2, v5_at2, v6_at2]
  rfl

theorem v5_at4 (c : Dev nD) : W4 m ρ c (Proc.devRef .tc main_v5) = Cert.ReferenceIdeal.ReadP.val_main_v5 (F := F) (m ((c : Thread nD τ).loc main_arg3)) :=
  (W4_of_ne m ρ c main_v5 (by decide)).trans (v5_at3 m ρ c)
theorem v6_at4 (c : Dev nD) : W4 m ρ c (Proc.devRef .tc main_v6) = Cert.ReferenceIdeal.ReadP.val_main_v6 (F := F) (m ((c : Thread nD τ).loc main_arg3)) :=
  (W4_of_ne m ρ c main_v6 (by decide)).trans (v6_at3 m ρ c)
theorem v31_at4 (c : Dev nD) : W4 m ρ c (Proc.devRef .tc main_v31) = Cert.ReferenceIdeal.ReadP.val_main_v39 (F := F) (m ((c : Thread nD τ).loc main_arg3)) :=
  (W4_of_ne m ρ c main_v31 (by decide)).trans (v31_at3 m ρ c)

/-! ## The first aggregation and the first bias kernel's entry -/

set_option maxHeartbeats 4000000 in
theorem v48_at5 (c : Dev nD) : W5 m ρ c (Proc.devRef .tc main_v48) = aggregate (W4 m ρ c (Proc.devRef .tc main_v36)) (m ((c : Thread nD τ).loc main_arg3)) := by
  show StableHlo.after hostOps1 (W4 m ρ c) (Proc.devRef .tc main_v48) = _
  after_results_simp
  rw [v5_at4, v6_at4, v31_at4]
  rfl

theorem v34_at5 (c : Dev nD) : W5 m ρ c (Proc.devRef .tc main_v34) = shapeCast S1x128 (m ((c : Thread nD τ).loc main_arg5)) shapeCasts_S128_S1x128 := by
  have h1 : W5 m ρ c (Proc.devRef .tc main_v34) = W4 m ρ c (Proc.devRef .tc main_v34) := by
    show StableHlo.after hostOps1 (W4 m ρ c) (Proc.devRef .tc main_v34) = _
    after_results
  refine h1.trans ((W4_of_ne m ρ c main_v34 (by decide)).trans ?_)
  show StableHlo.after hostOps0_2 (W2 m ρ c) (Proc.devRef .tc main_v34) = _
  after_results
  rfl

/-! ## The second linear kernel's entry -/

theorem v33_at6 (c : Dev nD) : W6 m ρ c (Proc.devRef .tc main_v33) = truncf .bf16 (m ((c : Thread nD τ).loc main_arg6)) bitsLt_bf16_f32 := by
  have h1 : W5 m ρ c (Proc.devRef .tc main_v33) = W4 m ρ c (Proc.devRef .tc main_v33) := by
    show StableHlo.after hostOps1 (W4 m ρ c) (Proc.devRef .tc main_v33) = _
    after_results
  refine (W6_of_ne m ρ c main_v33 (by decide)).trans (h1.trans ((W4_of_ne m ρ c main_v33 (by decide)).trans ?_))
  show StableHlo.after hostOps0_2 (W2 m ρ c) (Proc.devRef .tc main_v33) = _
  after_results

/-! ## The second aggregation and the second bias kernel's entry -/

theorem v5_at7 (c : Dev nD) : W7 m ρ c (Proc.devRef .tc main_v5) = Cert.ReferenceIdeal.ReadP.val_main_v5 (F := F) (m ((c : Thread nD τ).loc main_arg3)) := by
  have h1 : W5 m ρ c (Proc.devRef .tc main_v5) = W4 m ρ c (Proc.devRef .tc main_v5) := by
    show StableHlo.after hostOps1 (W4 m ρ c) (Proc.devRef .tc main_v5) = _
    after_results
  exact (W7_of_ne m ρ c main_v5 (by decide)).trans ((W6_of_ne m ρ c main_v5 (by decide)).trans (h1.trans (v5_at4 m ρ c)))
theorem v6_at7 (c : Dev nD) : W7 m ρ c (Proc.devRef .tc main_v6) = Cert.ReferenceIdeal.ReadP.val_main_v6 (F := F) (m ((c : Thread nD τ).loc main_arg3)) := by
  have h1 : W5 m ρ c (Proc.devRef .tc main_v6) = W4 m ρ c (Proc.devRef .tc main_v6) := by
    show StableHlo.after hostOps1 (W4 m ρ c) (Proc.devRef .tc main_v6) = _
    after_results
  exact (W7_of_ne m ρ c main_v6 (by decide)).trans ((W6_of_ne m ρ c main_v6 (by decide)).trans (h1.trans (v6_at4 m ρ c)))
theorem v31_at7 (c : Dev nD) : W7 m ρ c (Proc.devRef .tc main_v31) = Cert.ReferenceIdeal.ReadP.val_main_v39 (F := F) (m ((c : Thread nD τ).loc main_arg3)) := by
  have h1 : W5 m ρ c (Proc.devRef .tc main_v31) = W4 m ρ c (Proc.devRef .tc main_v31) := by
    show StableHlo.after hostOps1 (W4 m ρ c) (Proc.devRef .tc main_v31) = _
    after_results
  exact (W7_of_ne m ρ c main_v31 (by decide)).trans ((W6_of_ne m ρ c main_v31 (by decide)).trans (h1.trans (v31_at4 m ρ c)))

set_option maxHeartbeats 4000000 in
theorem v62_at8 (c : Dev nD) : W8 m ρ c (Proc.devRef .tc main_v62) = aggregate (W7 m ρ c (Proc.devRef .tc main_v50)) (m ((c : Thread nD τ).loc main_arg3)) := by
  show StableHlo.after hostOps3 (W7 m ρ c) (Proc.devRef .tc main_v62) = _
  after_results_simp
  rw [v5_at7, v6_at7, v31_at7]
  rfl

theorem v35_at8 (c : Dev nD) : W8 m ρ c (Proc.devRef .tc main_v35) = shapeCast S1x128 (m ((c : Thread nD τ).loc main_arg7)) shapeCasts_S128_S1x128 := by
  have h3 : W8 m ρ c (Proc.devRef .tc main_v35) = W7 m ρ c (Proc.devRef .tc main_v35) := by
    show StableHlo.after hostOps3 (W7 m ρ c) (Proc.devRef .tc main_v35) = _
    after_results
  have h1 : W5 m ρ c (Proc.devRef .tc main_v35) = W4 m ρ c (Proc.devRef .tc main_v35) := by
    show StableHlo.after hostOps1 (W4 m ρ c) (Proc.devRef .tc main_v35) = _
    after_results
  refine h3.trans ((W7_of_ne m ρ c main_v35 (by decide)).trans ((W6_of_ne m ρ c main_v35 (by decide)).trans
    (h1.trans ((W4_of_ne m ρ c main_v35 (by decide)).trans ?_))))
  show StableHlo.after hostOps0_2 (W2 m ρ c) (Proc.devRef .tc main_v35) = _
  after_results
  rfl

/-! ## The heads kernel's entry -/

theorem v63_at10 (c : Dev nD) : W10 m ρ c (Proc.devRef .tc main_v63) = W9 m ρ c (Proc.devRef .tc main_v63) := by
  show StableHlo.after hostOps4 (W9 m ρ c) (Proc.devRef .tc main_v63) = _
  after_results

/-! The arguments the last stretch of host operations reads are as launched: nothing writes an argument. -/
theorem arg1_at9 (c : Dev nD) : W9 m ρ c (Proc.devRef .tc main_arg1) = m ((c : Thread nD τ).loc main_arg1) := by
  have h1 : W10 m ρ c (Proc.devRef .tc main_arg1) = W9 m ρ c (Proc.devRef .tc main_arg1) := by
    show StableHlo.after hostOps4 (W9 m ρ c) (Proc.devRef .tc main_arg1) = _
    after_results
  exact h1.symm.trans ((W11_of_ne m ρ c main_arg1 (by decide)).symm.trans (W11_main_arg1 m ρ c))
theorem arg8_at9 (c : Dev nD) : W9 m ρ c (Proc.devRef .tc main_arg8) = m ((c : Thread nD τ).loc main_arg8) := by
  have h1 : W10 m ρ c (Proc.devRef .tc main_arg8) = W9 m ρ c (Proc.devRef .tc main_arg8) := by
    show StableHlo.after hostOps4 (W9 m ρ c) (Proc.devRef .tc main_arg8) = _
    after_results
  exact h1.symm.trans ((W11_of_ne m ρ c main_arg8 (by decide)).symm.trans (W11_main_arg8 m ρ c))
theorem arg9_at9 (c : Dev nD) : W9 m ρ c (Proc.devRef .tc main_arg9) = m ((c : Thread nD τ).loc main_arg9) := by
  have h1 : W10 m ρ c (Proc.devRef .tc main_arg9) = W9 m ρ c (Proc.devRef .tc main_arg9) := by
    show StableHlo.after hostOps4 (W9 m ρ c) (Proc.devRef .tc main_arg9) = _
    after_results
  exact h1.symm.trans ((W11_of_ne m ρ c main_arg9 (by decide)).symm.trans (W11_main_arg9 m ρ c))
theorem arg10_at9 (c : Dev nD) : W9 m ρ c (Proc.devRef .tc main_arg10) = m ((c : Thread nD τ).loc main_arg10) := by
  have h1 : W10 m ρ c (Proc.devRef .tc main_arg10) = W9 m ρ c (Proc.devRef .tc main_arg10) := by
    show StableHlo.after hostOps4 (W9 m ρ c) (Proc.devRef .tc main_arg10) = _
    after_results
  exact h1.symm.trans ((W11_of_ne m ρ c main_arg10 (by decide)).symm.trans (W11_main_arg10 m ρ c))
theorem arg11_at9 (c : Dev nD) : W9 m ρ c (Proc.devRef .tc main_arg11) = m ((c : Thread nD τ).loc main_arg11) := by
  have h1 : W10 m ρ c (Proc.devRef .tc main_arg11) = W9 m ρ c (Proc.devRef .tc main_arg11) := by
    show StableHlo.after hostOps4 (W9 m ρ c) (Proc.devRef .tc main_arg11) = _
    after_results
  exact h1.symm.trans ((W11_of_ne m ρ c main_arg11 (by decide)).symm.trans (W11_main_arg11 m ρ c))
theorem arg12_at9 (c : Dev nD) : W9 m ρ c (Proc.devRef .tc main_arg12) = m ((c : Thread nD τ).loc main_arg12) := by
  have h1 : W10 m ρ c (Proc.devRef .tc main_arg12) = W9 m ρ c (Proc.devRef .tc main_arg12) := by
    show StableHlo.after hostOps4 (W9 m ρ c) (Proc.devRef .tc main_arg12) = _
    after_results
  exact h1.symm.trans ((W11_of_ne m ρ c main_arg12 (by decide)).symm.trans (W11_main_arg12 m ρ c))
theorem arg13_at9 (c : Dev nD) : W9 m ρ c (Proc.devRef .tc main_arg13) = m ((c : Thread nD τ).loc main_arg13) := by
  have h1 : W10 m ρ c (Proc.devRef .tc main_arg13) = W9 m ρ c (Proc.devRef .tc main_arg13) := by
    show StableHlo.after hostOps4 (W9 m ρ c) (Proc.devRef .tc main_arg13) = _
    after_results
  exact h1.symm.trans ((W11_of_ne m ρ c main_arg13 (by decide)).symm.trans (W11_main_arg13 m ρ c))
theorem arg14_at9 (c : Dev nD) : W9 m ρ c (Proc.devRef .tc main_arg14) = m ((c : Thread nD τ).loc main_arg14) := by
  have h1 : W10 m ρ c (Proc.devRef .tc main_arg14) = W9 m ρ c (Proc.devRef .tc main_arg14) := by
    show StableHlo.after hostOps4 (W9 m ρ c) (Proc.devRef .tc main_arg14) = _
    after_results
  exact h1.symm.trans ((W11_of_ne m ρ c main_arg14 (by decide)).symm.trans (W11_main_arg14 m ρ c))
theorem arg15_at9 (c : Dev nD) : W9 m ρ c (Proc.devRef .tc main_arg15) = m ((c : Thread nD τ).loc main_arg15) := by
  have h1 : W10 m ρ c (Proc.devRef .tc main_arg15) = W9 m ρ c (Proc.devRef .tc main_arg15) := by
    show StableHlo.after hostOps4 (W9 m ρ c) (Proc.devRef .tc main_arg15) = _
    after_results
  exact h1.symm.trans ((W11_of_ne m ρ c main_arg15 (by decide)).symm.trans (W11_main_arg15 m ρ c))
theorem arg16_at9 (c : Dev nD) : W9 m ρ c (Proc.devRef .tc main_arg16) = m ((c : Thread nD τ).loc main_arg16) := by
  have h1 : W10 m ρ c (Proc.devRef .tc main_arg16) = W9 m ρ c (Proc.devRef .tc main_arg16) := by
    show StableHlo.after hostOps4 (W9 m ρ c) (Proc.devRef .tc main_arg16) = _
    after_results
  exact h1.symm.trans ((W11_of_ne m ρ c main_arg16 (by decide)).symm.trans (W11_main_arg16 m ρ c))
theorem arg17_at9 (c : Dev nD) : W9 m ρ c (Proc.devRef .tc main_arg17) = m ((c : Thread nD τ).loc main_arg17) := by
  have h1 : W10 m ρ c (Proc.devRef .tc main_arg17) = W9 m ρ c (Proc.devRef .tc main_arg17) := by
    show StableHlo.after hostOps4 (W9 m ρ c) (Proc.devRef .tc main_arg17) = _
    after_results
  exact h1.symm.trans ((W11_of_ne m ρ c main_arg17 (by decide)).symm.trans (W11_main_arg17 m ρ c))

theorem v64_at10 (c : Dev nD) : W10 m ρ c (Proc.devRef .tc main_v64) = shapeCast S100000x1 (m ((c : Thread nD τ).loc main_arg1)) shapeCasts_S100000_S100000x1 := by
  show StableHlo.after hostOps4 (W9 m ρ c) (Proc.devRef .tc main_v64) = _
  after_results
  rw [arg1_at9]
  rfl
theorem v65_at10 (c : Dev nD) : W10 m ρ c (Proc.devRef .tc main_v65) = truncf .bf16 (m ((c : Thread nD τ).loc main_arg8)) bitsLt_bf16_f32 := by
  show StableHlo.after hostOps4 (W9 m ρ c) (Proc.devRef .tc main_v65) = _
  after_results
  rw [arg8_at9]
theorem v66_at10 (c : Dev nD) : W10 m ρ c (Proc.devRef .tc main_v66) = truncf .bf16 (m ((c : Thread nD τ).loc main_arg10)) bitsLt_bf16_f32 := by
  show StableHlo.after hostOps4 (W9 m ρ c) (Proc.devRef .tc main_v66) = _
  after_results
  rw [arg10_at9]
theorem v67_at10 (c : Dev nD) : W10 m ρ c (Proc.devRef .tc main_v67) = truncf .bf16 (m ((c : Thread nD τ).loc main_arg12)) bitsLt_bf16_f32 := by
  show StableHlo.after hostOps4 (W9 m ρ c) (Proc.devRef .tc main_v67) = _
  after_results
  rw [arg12_at9]
theorem v68_at10 (c : Dev nD) : W10 m ρ c (Proc.devRef .tc main_v68) = truncf .bf16 (m ((c : Thread nD τ).loc main_arg14)) bitsLt_bf16_f32 := by
  show StableHlo.after hostOps4 (W9 m ρ c) (Proc.devRef .tc main_v68) = _
  after_results
  rw [arg14_at9]
theorem v69_at10 (c : Dev nD) : W10 m ρ c (Proc.devRef .tc main_v69) = truncf .bf16 (m ((c : Thread nD τ).loc main_arg16)) bitsLt_bf16_f32 := by
  show StableHlo.after hostOps4 (W9 m ρ c) (Proc.devRef .tc main_v69) = _
  after_results
  rw [arg16_at9]
theorem v70_at10 (c : Dev nD) : W10 m ρ c (Proc.devRef .tc main_v70) = shapeCast S1x128 (m ((c : Thread nD τ).loc main_arg9)) shapeCasts_S128_S1x128 := by
  show StableHlo.after hostOps4 (W9 m ρ c) (Proc.devRef .tc main_v70) = _
  after_results
  rw [arg9_at9]
  rfl
theorem v71_at10 (c : Dev nD) : W10 m ρ c (Proc.devRef .tc main_v71) = shapeCast S1x128 (m ((c : Thread nD τ).loc main_arg11)) shapeCasts_S128_S1x128 := by
  show StableHlo.after hostOps4 (W9 m ρ c) (Proc.devRef .tc main_v71) = _
  after_results
  rw [arg11_at9]
  rfl
theorem v72_at10 (c : Dev nD) : W10 m ρ c (Proc.devRef .tc main_v72) = shapeCast S1x1 (m ((c : Thread nD τ).loc main_arg13)) shapeCasts_S1_S1x1 := by
  show StableHlo.after hostOps4 (W9 m ρ c) (Proc.devRef .tc main_v72) = _
  after_results
  rw [arg13_at9]
  rfl
theorem v73_at10 (c : Dev nD) : W10 m ρ c (Proc.devRef .tc main_v73) = shapeCast S1x1 (m ((c : Thread nD τ).loc main_arg15)) shapeCasts_S1_S1x1 := by
  show StableHlo.after hostOps4 (W9 m ρ c) (Proc.devRef .tc main_v73) = _
  after_results
  rw [arg15_at9]
  rfl
theorem v74_at10 (c : Dev nD) : W10 m ρ c (Proc.devRef .tc main_v74) = shapeCast S1x1 (m ((c : Thread nD τ).loc main_arg17)) shapeCasts_S1_S1x1 := by
  show StableHlo.after hostOps4 (W9 m ρ c) (Proc.devRef .tc main_v74) = _
  after_results
  rw [arg17_at9]
  rfl

end Cert.KernelIdeal.Boundary

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.Results.lean ====
/-
  The idealized kernel's two results as the reference's own expressions of the arguments.

  Kernel by kernel and stretch by stretch the buffers hold what the reference computes: the first product x · W1 (the kernel's rounding
  of its operands is the identity over the extended reals), its graph aggregation, the rectified bias layer, the second product and
  aggregation and layer, and the heads. Two things differ in spelling only. The kernel keeps the heads as [100000, 1] columns
  throughout, where the reference flattens each head to a vector, selects on vectors and spreads the result back to a column: entry
  (r, 0) of either is the same expression of row r. And the kernel's sigmoid is the operation 1 / (1 + e^(-x)) that the reference
  spells out with a negation, an exponential, an addition and a division: one function on every extended real.
-/
import proofs.«169582_j48704929137156_1_alg».proof.Proof.LinearBlocks
import proofs.«169582_j48704929137156_1_alg».proof.Proof.BiasBlocks
import proofs.«169582_j48704929137156_1_alg».proof.Proof.HeadBlocks
import proofs.«169582_j48704929137156_1_alg».proof.Proof.Boundaries
import proofs.«169582_j48704929137156_1_alg».proof.Proof.LibRowOfVector
import proofs.«169582_j48704929137156_1_alg».proof.Proof.LibHostSpread
import Idealize.ShloMosaic.Lib.Pipeline.Value
import Idealize.ShloMosaic.Lib.ValueIdx
import Idealize.ShloMosaic.PureOps.Ideal.Laws

set_option maxRecDepth 16384

noncomputable section

namespace Cert.KernelIdeal.Results

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## Spellings -/

theorem ref_dims : Cert.ReferenceIdeal.dot_S100000x128_S128x128_S100000x128_1_0_0_1_n_n = DotDims.plain 100000 128 128 := rfl
theorem ref_head_dims : Cert.ReferenceIdeal.dot_S100000x128_S128x1_S100000x1_1_0_0_1_n_n = DotDims.plain 100000 128 1 := rfl

/-- Rounding the right operand to bf16 changes nothing over the extended reals. -/
theorem product_round_right {n : Nat} (X : FVec Ideal ⟨2, ![100000, 128]⟩ .f32) (W : FVec Ideal ⟨2, ![128, n]⟩ .f32) :
    Host.dotGeneral (DotDims.plain 100000 128 n) none X (truncf .bf16 W bitsLt_bf16_f32)
      = Host.dotGeneral (DotDims.plain 100000 128 n) none X W := by
  funext j
  exact (Ideal.dotGeneral_apply (DotDims.plain 100000 128 n) none default X (truncf .bf16 W bitsLt_bf16_f32) j).trans
    (Ideal.dotGeneral_apply (DotDims.plain 100000 128 n) none default X W j).symm

/-- The f32 word of 1 denotes 1. -/
theorem one_word : Ideal.ofBits .f32 0x3F800000#32 = 1 := by simp [Ideal.ofBits, Ideal.ieee, -EReal.coe_mul]; norm_num

/-- A vector recast as a column reads, at (i, ·), the vector at i. -/
theorem vec_to_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column recast as a vector reads, at i, the column at (i, 0). -/
theorem col_to_vec_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The reference's heads, as functions of the representation -/

/-- The reference's hidden layer. -/
def refHidden (R : FVec Ideal S100000x128 .f32) (W : FVec Ideal S128x128 .f32) (b : FVec Ideal S128 .f32) : FVec Ideal S100000x128 .f32 :=
  maximumf (addf (Host.dotGeneral Cert.ReferenceIdeal.dot_S100000x128_S128x128_S100000x128_1_0_0_1_n_n none R W)
      (broadcastInDim S100000x128 ![0, 1] Cert.ReferenceIdeal.Gen.bcast_S1x128_S100000x128_0_1 (broadcastInDim S1x128 ![1] Cert.ReferenceIdeal.Gen.bcast_S128_S1x128_1 b)))
    (broadcastInDim S100000x128 ![] Cert.ReferenceIdeal.Gen.bcast_S_S100000x128 (constant (F := Ideal) S_ .f32 0x00000000#32))

/-- The reference's scalar head, a column. -/
def refHead (H : FVec Ideal S100000x128 .f32) (w : FVec Ideal S128x1 .f32) (b : FVec Ideal S1 .f32) : FVec Ideal S100000x1 .f32 :=
  addf (Host.dotGeneral Cert.ReferenceIdeal.dot_S100000x128_S128x1_S100000x1_1_0_0_1_n_n none H w)
    (broadcastInDim S100000x1 ![0, 1] Cert.ReferenceIdeal.Gen.bcast_S1x1_S100000x1_0_1 (broadcastInDim S1x1 ![1] Cert.ReferenceIdeal.Gen.bcast_S1_S1x1_1 b))

/-- The reference's first result: the sigmoid, spelt out, of the third head, flattened and spread back to a column. -/
def refP1 (R : FVec Ideal S100000x128 .f32) (w : FVec Ideal S128x1 .f32) (b : FVec Ideal S1 .f32) : FVec Ideal S100000x1 .f32 :=
  broadcastInDim S100000x1 ![0] Cert.ReferenceIdeal.Gen.bcast_S100000_S100000x1_0
    (shapeCast S100000
      (Host.divf (broadcastInDim S100000x1 ![] Cert.ReferenceIdeal.Gen.bcast_S_S100000x1 (constant (F := Ideal) S_ .f32 0x3F800000#32))
        (addf (broadcastInDim S100000x1 ![] Cert.ReferenceIdeal.Gen.bcast_S_S100000x1 (constant (F := Ideal) S_ .f32 0x3F800000#32))
          (Host.exp (Host.negf (refHead R w b)))))
      Cert.ReferenceIdeal.Gen.shapeCasts_S100000x1_S100000)

/-- The reference's second result: the two heads flattened, selected per row by t > 0, spread back to a column. -/
def refY (R : FVec Ideal S100000x128 .f32) (t : IVec S100000 32)
    (W00 : FVec Ideal S128x128 .f32) (b00 : FVec Ideal S128 .f32) (W10 : FVec Ideal S128x128 .f32) (b10 : FVec Ideal S128 .f32)
    (w01 : FVec Ideal S128x1 .f32) (b01 : FVec Ideal S1 .f32) (w11 : FVec Ideal S128x1 .f32) (b11 : FVec Ideal S1 .f32) :
    FVec Ideal S100000x1 .f32 :=
  broadcastInDim S100000x1 ![0] Cert.ReferenceIdeal.Gen.bcast_S100000_S100000x1_0
    (select (cmpi .sgt t (broadcastInDim S100000 ![] Cert.ReferenceIdeal.Gen.bcast_S_S100000 (constantI S_ 32 0#32)))
      (shapeCast S100000 (refHead (refHidden R W10 b10) w11 b11) Cert.ReferenceIdeal.Gen.shapeCasts_S100000x1_S100000)
      (shapeCast S100000 (refHead (refHidden R W00 b00) w01 b01) Cert.ReferenceIdeal.Gen.shapeCasts_S100000x1_S100000))

/-! ## The kernel's spellings are the reference's -/

theorem hidden_form (R : FVec Ideal S100000x128 .f32) (W : FVec Ideal S128x128 .f32) (b : FVec Ideal S128 .f32) :
    HeadBlocks.hidden Cert.ReferenceIdeal.Gen.bcast_S1x128_S100000x128_0_1 Cert.ReferenceIdeal.Gen.bcast_S_S100000x128 R (truncf .bf16 W bitsLt_bf16_f32)
        (shapeCast S1x128 b shapeCasts_S128_S1x128) = refHidden R W b := by
  unfold HeadBlocks.hidden refHidden
  rw [product_round_right, Cert.Lib.shapeCast_row_eq_broadcastInDim b shapeCasts_S128_S1x128 Cert.ReferenceIdeal.Gen.bcast_S128_S1x128_1, ref_dims]

theorem head_form (H : FVec Ideal S100000x128 .f32) (w : FVec Ideal S128x1 .f32) (b : FVec Ideal S1 .f32) :
    HeadBlocks.headCol Cert.ReferenceIdeal.Gen.bcast_S1x1_S100000x1_0_1 H (truncf .bf16 w bitsLt_bf16_f32) (shapeCast S1x1 b shapeCasts_S1_S1x1)
      = refHead H w b := by
  unfold HeadBlocks.headCol refHead
  rw [product_round_right, Cert.Lib.shapeCast_row_eq_broadcastInDim b shapeCasts_S1_S1x1 Cert.ReferenceIdeal.Gen.bcast_S1_S1x1_1, ref_head_dims]

/-- The sigmoid head: the kernel's one operation on the column is the reference's spelt-out expression, flattened and spread back. -/
theorem p1_form (R : FVec Ideal S100000x128 .f32) (w : FVec Ideal S128x1 .f32) (b : FVec Ideal S1 .f32) :
    HeadBlocks.sigmoidHead Cert.ReferenceIdeal.Gen.bcast_S1x1_S100000x1_0_1 R (truncf .bf16 w bitsLt_bf16_f32) (shapeCast S1x1 b shapeCasts_S1_S1x1)
      = refP1 R w b := by
  unfold HeadBlocks.sigmoidHead refP1
  rw [head_form]
  funext i
  obtain ⟨r, u, rfl⟩ : ∃ (r : Fin 100000) (u : Fin 1), i = ix2 r u := ⟨i 0, i 1, eq_ix2 i⟩
  have hu : u = 0 := Subsingleton.elim _ _
  subst hu
  rw [Cert.Lib.spread_a_a1_apply, col_to_vec_apply]
  show FloatOps.logistic (refHead R w b (ix2 r 0))
    = FloatOps.hostDivf (broadcastInDim S100000x1 ![] Cert.ReferenceIdeal.Gen.bcast_S_S100000x1 (constant (F := Ideal) S_ .f32 0x3F800000#32) (ix2 r 0))
        (FloatOps.addf (broadcastInDim S100000x1 ![] Cert.ReferenceIdeal.Gen.bcast_S_S100000x1 (constant (F := Ideal) S_ .f32 0x3F800000#32) (ix2 r 0))
          (FloatOps.hostUnary .exp (FloatOps.hostNegf (refHead R w b (ix2 r 0)))))
  rw [Cert.Lib.splat_apply, constant_apply, one_word]
  rfl

/-- The selected head: selecting on columns is selecting on the flattened vectors and spreading back. -/
theorem y_form (R : FVec Ideal S100000x128 .f32) (t : IVec S100000 32)
    (W00 : FVec Ideal S128x128 .f32) (b00 : FVec Ideal S128 .f32) (W10 : FVec Ideal S128x128 .f32) (b10 : FVec Ideal S128 .f32)
    (w01 : FVec Ideal S128x1 .f32) (b01 : FVec Ideal S1 .f32) (w11 : FVec Ideal S128x1 .f32) (b11 : FVec Ideal S1 .f32) :
    HeadBlocks.selectedHead Cert.ReferenceIdeal.Gen.bcast_S1x128_S100000x128_0_1 Cert.ReferenceIdeal.Gen.bcast_S_S100000x128 Cert.ReferenceIdeal.Gen.bcast_S1x1_S100000x1_0_1 R
        (shapeCast S100000x1 t shapeCasts_S100000_S100000x1)
        (truncf .bf16 W00 bitsLt_bf16_f32) (shapeCast S1x128 b00 shapeCasts_S128_S1x128)
        (truncf .bf16 W10 bitsLt_bf16_f32) (shapeCast S1x128 b10 shapeCasts_S128_S1x128)
        (truncf .bf16 w01 bitsLt_bf16_f32) (shapeCast S1x1 b01 shapeCasts_S1_S1x1)
        (truncf .bf16 w11 bitsLt_bf16_f32) (shapeCast S1x1 b11 shapeCasts_S1_S1x1)
      = refY R t W00 b00 W10 b10 w01 b01 w11 b11 := by
  unfold HeadBlocks.selectedHead refY
  rw [hidden_form, hidden_form, head_form, head_form]
  funext i
  obtain ⟨r, u, rfl⟩ : ∃ (r : Fin 100000) (u : Fin 1), i = ix2 r u := ⟨i 0, i 1, eq_ix2 i⟩
  have hu : u = 0 := Subsingleton.elim _ _
  subst hu
  rw [Cert.Lib.spread_a_a1_apply]
  show Scalar.select (IntOp.cmpi .sgt (shapeCast S100000x1 t shapeCasts_S100000_S100000x1 (ix2 r 0)) (0#32 : BitVec 32))
      (refHead (refHidden R W10 b10) w11 b11 (ix2 r 0)) (refHead (refHidden R W00 b00) w01 b01 (ix2 r 0))
    = Scalar.select (IntOp.cmpi .sgt (t (ix1 r)) (broadcastInDim S100000 ![] Cert.ReferenceIdeal.Gen.bcast_S_S100000 (constantI S_ 32 0#32) (ix1 r)))
      (shapeCast S100000 (refHead (refHidden R W10 b10) w11 b11) Cert.ReferenceIdeal.Gen.shapeCasts_S100000x1_S100000 (ix1 r))
      (shapeCast S100000 (refHead (refHidden R W00 b00) w01 b01) Cert.ReferenceIdeal.Gen.shapeCasts_S100000x1_S100000 (ix1 r))
  rw [vec_to_col_apply, col_to_vec_apply, col_to_vec_apply, Cert.Lib.splat_apply]
  rfl

/-! ## Through the program -/

variable (m : (ℓ : Loc nD τ sig) → Buf (Elt Ideal) ℓ) (ρ : Dev nD → PrngReg) (c : Dev nD)

/-- After the first linear kernel: x · W1. -/
theorem product1 : W4 m ρ c (Proc.devRef .tc main_v36) = Cert.ReferenceIdeal.ReadP.val_main_v31 (F := Ideal) (m ((c : Thread nD τ).loc main_arg0)) (m ((c : Thread nD τ).loc main_arg4)) := by
  refine (W4_arr m ρ c 2).trans ((Blocks.final0 (V3 m ρ) c).trans ?_)
  show Blocks.wholeProduct (φ := .bf16) (W3 m ρ c (Proc.devRef .tc main_arg0)) (W3 m ρ c (Proc.devRef .tc main_v32)) = _
  rw [Boundary.arg0_at3, Boundary.v32_at3]
  unfold Blocks.wholeProduct Cert.ReferenceIdeal.ReadP.val_main_v31
  rw [ref_dims]
  exact product_round_right _ _

/-- Its aggregation over the graph. -/
theorem aggregate1 : W5 m ρ c (Proc.devRef .tc main_v48) = Cert.ReferenceIdeal.ReadP.val_main_v44 (F := Ideal) (m ((c : Thread nD τ).loc main_arg0)) (m ((c : Thread nD τ).loc main_arg3)) (m ((c : Thread nD τ).loc main_arg4)) := by
  rw [Boundary.v48_at5, product1]
  rfl

/-- After the first bias kernel: the first layer's representation. -/
theorem layer1 : W6 m ρ c (Proc.devRef .tc main_v49) = Cert.ReferenceIdeal.ReadP.val_main_v48 (F := Ideal) (m ((c : Thread nD τ).loc main_arg0)) (m ((c : Thread nD τ).loc main_arg3)) (m ((c : Thread nD τ).loc main_arg4)) (m ((c : Thread nD τ).loc main_arg5)) := by
  refine (W6_arr m ρ c 2).trans ((BiasBlocks.final1_2 (V5 m ρ) Cert.ReferenceIdeal.Gen.bcast_S1x128_S100000x128_0_1 Cert.ReferenceIdeal.Gen.bcast_S_S100000x128 c).trans ?_)
  show BiasBlocks.biasRelu Cert.ReferenceIdeal.Gen.bcast_S1x128_S100000x128_0_1 Cert.ReferenceIdeal.Gen.bcast_S_S100000x128 (W5 m ρ c (Proc.devRef .tc main_v48)) (W5 m ρ c (Proc.devRef .tc main_v34)) = _
  rw [aggregate1, Boundary.v34_at5,
    Cert.Lib.shapeCast_row_eq_broadcastInDim (m ((c : Thread nD τ).loc main_arg5)) shapeCasts_S128_S1x128 Cert.ReferenceIdeal.Gen.bcast_S128_S1x128_1]
  rfl

/-- After the second linear kernel. -/
theorem product2 : W7 m ρ c (Proc.devRef .tc main_v50) = Cert.ReferenceIdeal.ReadP.val_main_v76 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (W7_arr m ρ c 2).trans ((Blocks.final2 (V6 m ρ) c).trans ?_)
  show Blocks.wholeProduct (φ := .bf16) (W6 m ρ c (Proc.devRef .tc main_v49)) (W6 m ρ c (Proc.devRef .tc main_v33)) = _
  rw [layer1, Boundary.v33_at6]
  unfold Blocks.wholeProduct Cert.ReferenceIdeal.ReadP.val_main_v76
  rw [ref_dims]
  exact product_round_right _ _

/-- Its aggregation over the graph (the reference recomputes the graph's quantities: the same operations of the same edge list). -/
theorem aggregate2 : W8 m ρ c (Proc.devRef .tc main_v62) = Cert.ReferenceIdeal.ReadP.val_main_v89 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  rw [Boundary.v62_at8, product2]
  rfl

/-- After the second bias kernel: the representation the heads read. -/
theorem layer2 : W9 m ρ c (Proc.devRef .tc main_v63) = Cert.ReferenceIdeal.ReadP.val_main_v93 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 2).trans ((BiasBlocks.final3_2 (V8 m ρ) Cert.ReferenceIdeal.Gen.bcast_S1x128_S100000x128_0_1 Cert.ReferenceIdeal.Gen.bcast_S_S100000x128 c).trans ?_)
  show BiasBlocks.biasRelu Cert.ReferenceIdeal.Gen.bcast_S1x128_S100000x128_0_1 Cert.ReferenceIdeal.Gen.bcast_S_S100000x128 (W8 m ρ c (Proc.devRef .tc main_v62)) (W8 m ρ c (Proc.devRef .tc main_v35)) = _
  rw [aggregate2, Boundary.v35_at8,
    Cert.Lib.shapeCast_row_eq_broadcastInDim (m ((c : Thread nD τ).loc main_arg7)) shapeCasts_S128_S1x128 Cert.ReferenceIdeal.Gen.bcast_S128_S1x128_1]
  rfl

/-- The first result. -/
theorem result0 : W11 m ρ c (Proc.devRef .tc main_v75_0) = Cert.ReferenceIdeal.ReadP.val_main_v128 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) := by
  refine (W11_arr m ρ c 12).trans ((HeadBlocks.final4_12 (V10 m ρ) Cert.ReferenceIdeal.Gen.bcast_S1x1_S100000x1_0_1 c).trans ?_)
  show HeadBlocks.sigmoidHead Cert.ReferenceIdeal.Gen.bcast_S1x1_S100000x1_0_1 (W10 m ρ c (Proc.devRef .tc main_v63)) (W10 m ρ c (Proc.devRef .tc main_v69)) (W10 m ρ c (Proc.devRef .tc main_v74)) = _
  rw [Boundary.v63_at10, layer2, Boundary.v69_at10, Boundary.v74_at10, p1_form]
  rfl

/-- The second result. -/
theorem result1 : W11 m ρ c (Proc.devRef .tc main_v75_1) = Cert.ReferenceIdeal.ReadP.val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W11_arr m ρ c 13).trans ((HeadBlocks.final4_13 (V10 m ρ) Cert.ReferenceIdeal.Gen.bcast_S1x128_S100000x128_0_1 Cert.ReferenceIdeal.Gen.bcast_S_S100000x128 Cert.ReferenceIdeal.Gen.bcast_S1x1_S100000x1_0_1 c).trans ?_)
  show HeadBlocks.selectedHead Cert.ReferenceIdeal.Gen.bcast_S1x128_S100000x128_0_1 Cert.ReferenceIdeal.Gen.bcast_S_S100000x128 Cert.ReferenceIdeal.Gen.bcast_S1x1_S100000x1_0_1
      (W10 m ρ c (Proc.devRef .tc main_v63)) (W10 m ρ c (Proc.devRef .tc main_v64)) (W10 m ρ c (Proc.devRef .tc main_v65)) (W10 m ρ c (Proc.devRef .tc main_v70))
      (W10 m ρ c (Proc.devRef .tc main_v66)) (W10 m ρ c (Proc.devRef .tc main_v71)) (W10 m ρ c (Proc.devRef .tc main_v67)) (W10 m ρ c (Proc.devRef .tc main_v72))
      (W10 m ρ c (Proc.devRef .tc main_v68)) (W10 m ρ c (Proc.devRef .tc main_v73)) = _
  rw [Boundary.v63_at10, layer2, Boundary.v64_at10, Boundary.v65_at10, Boundary.v70_at10, Boundary.v66_at10, Boundary.v71_at10,
    Boundary.v67_at10, Boundary.v72_at10, Boundary.v68_at10, Boundary.v73_at10, y_form]
  rfl

end Cert.KernelIdeal.Results

end
-- ==== Proof.lean ====
/-
  A two-layer graph convolution with three scalar heads, as five tiled kernels among host operations, against its plain
  array-program reference: equal results over the extended reals.

  Both programs compute, from node features x, an edge list and the weights: the edge lists with one self-loop per node, each
  node's degree and the per-edge normalisation dinv[s] · dinv[d]; two layers rep ← max(aggregate(rep · W) + b, 0), where the
  aggregation gathers the product's rows at the sources, scales them by the normalisation and adds them up at the destinations;
  two hidden layers of the final representation with a scalar head each, selected per node by t > 0; and the sigmoid of a third
  scalar head. The kernel program computes the products, the bias layers and the heads in kernels tiled over blocks of 5000 rows,
  with operands rounded to bf16 on the way into each product, and leaves the gathers and the scatter-adds to the host; the
  reference does everything on whole arrays. Over the extended reals rounding is the identity and a product accumulated into zero
  is the plain sum over the contracted coordinate, each kernel's blocks are the corresponding rows of the whole-array expression and
  tile its result, and the host operations between the kernels are the reference's own: so every buffer the kernel program fills
  holds what the reference computes at that stage, and so do the two results. No sum is reordered and nothing is cancelled, so the
  equality holds at every extended-real input and the finiteness of the inputs is never used.

  The three frames are the programs' runs with the results forgotten; the idealized kernel is the kernel with no rewrite recorded
  (nothing to preserve).
-/
import proofs.«169582_j48704929137156_1_alg».proof.Defs
import proofs.«169582_j48704929137156_1_alg».proof.Proof.Gen.Kernel
import proofs.«169582_j48704929137156_1_alg».proof.Proof.Gen.Kernel.Skeleton
import proofs.«169582_j48704929137156_1_alg».proof.Proof.Gen.Kernel.Launch
import proofs.«169582_j48704929137156_1_alg».proof.Proof.Gen.Kernel.Points
import proofs.«169582_j48704929137156_1_alg».proof.Proof.Gen.Kernel.Frame
import proofs.«169582_j48704929137156_1_alg».proof.Proof.Gen.KernelIdeal
import proofs.«169582_j48704929137156_1_alg».proof.Proof.Gen.KernelIdeal.Skeleton
import proofs.«169582_j48704929137156_1_alg».proof.Proof.Gen.KernelIdeal.Launch
import proofs.«169582_j48704929137156_1_alg».proof.Proof.Gen.KernelIdeal.Points
import proofs.«169582_j48704929137156_1_alg».proof.Proof.Gen.KernelIdeal.Frame
import proofs.«169582_j48704929137156_1_alg».proof.Proof.Gen.ReferenceIdeal
import proofs.«169582_j48704929137156_1_alg».proof.Proof.Gen.Pre_finite_inputs
import proofs.«169582_j48704929137156_1_alg».proof.Proof.KernelValueRun
import proofs.«169582_j48704929137156_1_alg».proof.Proof.Results
import proofs.«169582_j48704929137156_1_alg».proof.Proof.RefRun
import proofs.«169582_j48704929137156_1_alg».proof.Proof.RefRead
import Idealize.ShloMosaic.Adequacy
import Idealize.ShloMosaic.Init

set_option maxRecDepth 16384

noncomputable section

namespace Cert.Proof

open Idealize.ShloMosaic Idealize.SL.Sem Cert.Kernel

/-- The kernel program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the two results forgotten. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealized kernel program and the reference, from memories agreeing on the arguments, end with the same two results: both
    hold the reference's stages of the shared arguments. -/
theorem algebraic : Cert.algebraic_KernelIdeal_ReferenceIdeal := by
  intro m ρ m' ρ' _ hagree
  refine ⟨fun c => Cert.ReferenceIdeal.ReadP.val_main_v128 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.ReadP.val_main_v129 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · -- the kernel program: its run names the results as the last boundary's contents, which are those stages
    exact (θ_run Cert.KernelIdeal.defs _ _).mono
      (fun _ h c => ⟨(h c).1.trans (Cert.KernelIdeal.Results.result0 m ρ c), (h c).2.1.trans (Cert.KernelIdeal.Results.result1 m ρ c), (h c).2.2⟩)
      (Cert.KernelIdeal.ValueRun.run (F := Ideal) m ρ)
  · -- the reference: its run's terms are those stages of its own arguments, which are the kernel program's
    refine (θ_run Cert.ReferenceIdeal.defs _ _).mono (fun _ h c => ?_) (Cert.ReferenceIdeal.ValueP.run (F := Ideal) m' ρ')
    obtain ⟨a0, a1, a2, a3, a4, a5, a6, a7, a8, a9, a10, a11, a12, a13, a14, a15, a16, a17⟩ := hagree c
    refine ⟨(h c).1.trans ?_, (h c).2.1.trans ?_, (h c).2.2⟩
    · rw [Cert.ReferenceIdeal.ReadP.val_main_v128_eq, a0, a3, a4, a5, a6, a7, a16, a17]
    · rw [Cert.ReferenceIdeal.ReadP.val_main_v129_eq, a0, a1, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
